-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1 .f32) (main_arg13 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x512 .f32) (main_arg1 : FVec F S512x1024 .f32) (main_arg2 : FVec F S1024 .f32) (main_arg3 : FVec F S1024x1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024 .f32) (main_arg12 : FVec F S1024x1 .f32) (main_arg13 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S65536x1 : Shape := ⟨2, ![65536, 1]⟩
abbrev S1024x512 : Shape := ⟨2, ![1024, 512]⟩

abbrev nBuf : Space → Nat
  | .hbm => 29
  | .vmem => 17
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S65536x512, .bf16⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1, .f32⟩
  | .hbm, ⟨28, _⟩ => ⟨S65536x1, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1, .bf16⟩
  | .local _ .vmem, ⟨14, _⟩ => ⟨S1x1, .f32⟩
  | .local _ .vmem, ⟨15, _⟩ => ⟨S1024x1, .f32⟩
  | .local _ .vmem, ⟨16, _⟩ => ⟨S1024x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S1024_S1x1024 : S1024.ShapeCasts S1x1024
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .bf16 = 32 ∨ (Rect.block (s := S65536x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1.size a ≤ S1024x1.size a
  hwx0_12 : ∀ i : grid0.Coords, EltTy.bits .bf16 = 32 ∨ (Rect.block (s := S1024x1) S1024x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S65536x1.size a
  hwx0_14 : ∀ i : grid0.Coords, EltTy.bits .f32 = 32 ∨ (Rect.block (s := S65536x1) S1024x1.size (cc0_transform_14 i) (hinb0_14 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x1024 : Shape := ⟨2, ![512, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1, .f32⟩
  | .hbm, ⟨43, _⟩ => ⟨S65536x1024, .f32⟩
  | .hbm, ⟨44, _⟩ => ⟨S65536x1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S_, .f32⟩
  | .hbm, ⟨73, _⟩ => ⟨S65536x1, .f32⟩
  | .hbm, ⟨74, _⟩ => ⟨S65536x1, .f32⟩
  | .hbm, ⟨75, _⟩ => ⟨S65536x1, .f32⟩
  | .hbm, ⟨76, _⟩ => ⟨S65536x1024, .f32⟩
  | .hbm, ⟨77, _⟩ => ⟨S65536x1024, .f32⟩
  | .hbm, ⟨78, _⟩ => ⟨S1x1024, .f32⟩
  | .hbm, ⟨79, _⟩ => ⟨S65536x1024, .f32⟩
  | .hbm, ⟨80, _⟩ => ⟨S65536x1024, .f32⟩
  | .hbm, ⟨81, _⟩ => ⟨S1x1024, .f32⟩
  | .hbm, ⟨82, _⟩ => ⟨S65536x1024, .f32⟩
  | .hbm, ⟨83, _⟩ => ⟨S65536x1024, .f32⟩
  | .hbm, ⟨84, _⟩ => ⟨S_, .f32⟩
  | .hbm, ⟨85, _⟩ => ⟨S65536x1024, .f32⟩
  | .hbm, ⟨86, _⟩ => ⟨S65536x1024, .f32⟩
  | .hbm, ⟨87, _⟩ => ⟨S65536x1024, .f32⟩
  | .hbm, ⟨88, _⟩ => ⟨S_, .f32⟩
  | .hbm, ⟨89, _⟩ => ⟨S65536, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x1024, .f32⟩
  | .hbm, ⟨95, _⟩ => ⟨S65536x1024, .f32⟩
  | .hbm, ⟨96, _⟩ => ⟨S65536x1024, .f32⟩
  | .hbm, ⟨97, _⟩ => ⟨S_, .f32⟩
  | .hbm, ⟨98, _⟩ => ⟨S65536, .f32⟩
  | .hbm, ⟨99, _⟩ => ⟨S65536x1, .f32⟩
  | .hbm, ⟨100, _⟩ => ⟨S_, .f32⟩
  | .hbm, ⟨101, _⟩ => ⟨S65536x1, .f32⟩
  | .hbm, ⟨102, _⟩ => ⟨S65536x1, .f32⟩
  | .hbm, ⟨103, _⟩ => ⟨S65536x1024, .f32⟩
  | .hbm, ⟨104, _⟩ => ⟨S65536x1024, .f32⟩
  | .hbm, ⟨105, _⟩ => ⟨S_, .f32⟩
  | .hbm, ⟨106, _⟩ => ⟨S65536x1, .f32⟩
  | .hbm, ⟨107, _⟩ => ⟨S65536x1, .f32⟩
  | .hbm, ⟨108, _⟩ => ⟨S65536x1, .f32⟩
  | .hbm, ⟨109, _⟩ => ⟨S65536x1024, .f32⟩
  | .hbm, ⟨110, _⟩ => ⟨S65536x1024, .f32⟩
  | .hbm, ⟨111, _⟩ => ⟨S1x1024, .f32⟩
  | .hbm, ⟨112, _⟩ => ⟨S65536x1024, .f32⟩
  | .hbm, ⟨113, _⟩ => ⟨S65536x1024, .f32⟩
  | .hbm, ⟨114, _⟩ => ⟨S1x1024, .f32⟩
  | .hbm, ⟨115, _⟩ => ⟨S65536x1024, .f32⟩
  | .hbm, ⟨116, _⟩ => ⟨S65536x1024, .f32⟩
  | .hbm, ⟨117, _⟩ => ⟨S_, .f32⟩
  | .hbm, ⟨118, _⟩ => ⟨S65536x1024, .f32⟩
  | .hbm, ⟨119, _⟩ => ⟨S65536x1024, .f32⟩
  | .hbm, ⟨120, _⟩ => ⟨S65536x1, .f32⟩
  | .hbm, ⟨121, _⟩ => ⟨S1x1, .f32⟩
  | .hbm, ⟨122, _⟩ => ⟨S65536x1, .f32⟩
  | .hbm, ⟨123, _⟩ => ⟨S65536x1, .f32⟩
  | .hbm, ⟨124, _⟩ => ⟨S_, .f32⟩
  | .hbm, ⟨125, _⟩ => ⟨S65536x1, .f32⟩
  | .hbm, ⟨126, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call3_cst : Ref sig .tc := ⟨.hbm, 117, rfl⟩
abbrev main_call3_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call4_cst : Ref sig .tc := ⟨.hbm, 124, rfl⟩
abbrev main_call4_v0 : Ref sig .tc := ⟨.hbm, 125, rfl⟩
abbrev main_v87 : Ref sig .tc := ⟨.hbm, 126, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x1_S65536x1_1_0_0_1_n_n_wf : DotDims.WF S65536x1024 S1024x1 S65536x1 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.Spec.lean ====
/-
  The network both programs compute, written one row at a time over the extended reals.

  A row `x` of 512 descriptors goes through a dense layer with bias and a ReLU, then three times through a
  bias-free dense layer, a LayerNorm with gain and offset and a ReLU, then through a dense layer onto one output
  with bias and a ReLU. The two programs differ in one place only, the variance inside the LayerNorm: the kernel
  takes the mean of the squares minus the square of the mean (`normK`), the reference the mean of the squared
  deviations (`normR`). Everything else is the same expression, so the network is stated twice, once with each
  form, and `Law.lean` proves the two equal on real inputs.

  The three float words the programs spell are kept as words: the zero a ReLU compares against, the row length
  1024 a mean divides by, and the LayerNorm's epsilon.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The word `+0.0`: a ReLU's lower bound. -/
def zeroW : EReal := Ideal.ofBits .f32 0x00000000#32
/-- The word `1024.0`: the divisor of a row's mean. -/
def widthW : EReal := Ideal.ofBits .f32 0x44800000#32
/-- The word of the LayerNorm's epsilon (the float nearest `1e-6`). -/
def epsW : EReal := Ideal.ofBits .f32 0x358637BD#32

/-- ReLU: the larger of a value and zero. -/
def relu (x : EReal) : EReal := max x zeroW

/-- A dense layer without bias: entry `j` is the row times column `j` of the weights. -/
def dense {n k : Nat} (h : Fin n → EReal) (W : Fin n → Fin k → EReal) (j : Fin k) : EReal := ∑ a, h a * W a j

/-- A row's mean: its sum over the width word. -/
def mean {n : Nat} (y : Fin n → EReal) : EReal := Ideal.div (∑ a, y a) widthW

/-- The kernel's normalised entry: centred, times the reciprocal root of (mean of squares − mean² + ε). -/
def normK {n : Nat} (y : Fin n → EReal) (j : Fin n) : EReal :=
  (y j - mean y) * Ideal.rsqrt (Ideal.div (∑ a, y a * y a) widthW - mean y * mean y + epsW)

/-- The reference's normalised entry: centred, times the reciprocal root of (mean of squared deviations + ε). -/
def normR {n : Nat} (y : Fin n → EReal) (j : Fin n) : EReal :=
  (y j - mean y) * Ideal.rsqrt (Ideal.div (∑ a, (y a - mean y) * (y a - mean y)) widthW + epsW)

/-- The first layer: dense with bias, then ReLU. -/
def first (x : Fin 512 → EReal) (W : Fin 512 → Fin 1024 → EReal) (b : Fin 1024 → EReal) (j : Fin 1024) : EReal :=
  relu (dense x W j + b j)

/-- A hidden layer in the kernel's form: dense, LayerNorm (`normK`) with gain `g` and offset `b`, ReLU. -/
def hiddenK (h : Fin 1024 → EReal) (W : Fin 1024 → Fin 1024 → EReal) (g b : Fin 1024 → EReal) (j : Fin 1024) : EReal :=
  relu (normK (dense h W) j * g j + b j)

/-- A hidden layer in the reference's form (`normR`). -/
def hiddenR (h : Fin 1024 → EReal) (W : Fin 1024 → Fin 1024 → EReal) (g b : Fin 1024 → EReal) (j : Fin 1024) : EReal :=
  relu (normR (dense h W) j * g j + b j)

/-- The output layer: the row times the one output column, plus the bias, then ReLU. -/
def last (h : Fin 1024 → EReal) (w : Fin 1024 → EReal) (b : EReal) : EReal := relu ((∑ a, h a * w a) + b)

/-- The whole network on one row, LayerNorms in the kernel's form. -/
def netK (x : Fin 512 → EReal) (W0 : Fin 512 → Fin 1024 → EReal) (b0 : Fin 1024 → EReal)
    (W1 : Fin 1024 → Fin 1024 → EReal) (g1 be1 : Fin 1024 → EReal)
    (W2 : Fin 1024 → Fin 1024 → EReal) (g2 be2 : Fin 1024 → EReal)
    (W3 : Fin 1024 → Fin 1024 → EReal) (g3 be3 : Fin 1024 → EReal)
    (wo : Fin 1024 → EReal) (bo : EReal) : EReal :=
  last (hiddenK (hiddenK (hiddenK (first x W0 b0) W1 g1 be1) W2 g2 be2) W3 g3 be3) wo bo

/-- The whole network on one row, LayerNorms in the reference's form. -/
def netR (x : Fin 512 → EReal) (W0 : Fin 512 → Fin 1024 → EReal) (b0 : Fin 1024 → EReal)
    (W1 : Fin 1024 → Fin 1024 → EReal) (g1 be1 : Fin 1024 → EReal)
    (W2 : Fin 1024 → Fin 1024 → EReal) (g2 be2 : Fin 1024 → EReal)
    (W3 : Fin 1024 → Fin 1024 → EReal) (g3 be3 : Fin 1024 → EReal)
    (wo : Fin 1024 → EReal) (bo : EReal) : EReal :=
  last (hiddenR (hiddenR (hiddenR (first x W0 b0) W1 g1 be1) W2 g2 be2) W3 g3 be3) wo bo

/-! ## Arrays as rows, matrices and vectors -/

/-- Row `r` of a two-axis array. -/
def rowOf {a b : Nat} (X : (⟨2, ![a, b]⟩ : Shape).Idx → EReal) (r : Fin a) : Fin b → EReal := fun k => X (ix2 r k)
/-- A two-axis array as a matrix. -/
def matOf {a b : Nat} (X : (⟨2, ![a, b]⟩ : Shape).Idx → EReal) : Fin a → Fin b → EReal := fun k j => X (ix2 k j)
/-- A one-axis array as a vector. -/
def vecOf {a : Nat} (X : (⟨1, ![a]⟩ : Shape).Idx → EReal) : Fin a → EReal := fun j => X (ix1 j)
/-- The one column of an `[a, 1]` array. -/
def colOf {a : Nat} (X : (⟨2, ![a, 1]⟩ : Shape).Idx → EReal) : Fin a → EReal := fun k => X (ix2 k (0 : Fin 1))

/-- The result array in the kernel's form: entry `(r, ·)` is the network on row `r` of the descriptors. -/
def outK (A0 : (⟨2, ![65536, 512]⟩ : Shape).Idx → EReal) (A1 : (⟨2, ![512, 1024]⟩ : Shape).Idx → EReal)
    (A2 : (⟨1, ![1024]⟩ : Shape).Idx → EReal)
    (A3 : (⟨2, ![1024, 1024]⟩ : Shape).Idx → EReal) (A4 A5 : (⟨1, ![1024]⟩ : Shape).Idx → EReal)
    (A6 : (⟨2, ![1024, 1024]⟩ : Shape).Idx → EReal) (A7 A8 : (⟨1, ![1024]⟩ : Shape).Idx → EReal)
    (A9 : (⟨2, ![1024, 1024]⟩ : Shape).Idx → EReal) (A10 A11 : (⟨1, ![1024]⟩ : Shape).Idx → EReal)
    (A12 : (⟨2, ![1024, 1]⟩ : Shape).Idx → EReal) (A13 : (⟨1, ![1]⟩ : Shape).Idx → EReal) :
    (⟨2, ![65536, 1]⟩ : Shape).Idx → EReal := fun i =>
  netK (rowOf A0 (i 0)) (matOf A1) (vecOf A2) (matOf A3) (vecOf A4) (vecOf A5) (matOf A6) (vecOf A7) (vecOf A8)
    (matOf A9) (vecOf A10) (vecOf A11) (colOf A12) (A13 (ix1 (0 : Fin 1)))

/-- The result array in the reference's form. -/
def outR (A0 : (⟨2, ![65536, 512]⟩ : Shape).Idx → EReal) (A1 : (⟨2, ![512, 1024]⟩ : Shape).Idx → EReal)
    (A2 : (⟨1, ![1024]⟩ : Shape).Idx → EReal)
    (A3 : (⟨2, ![1024, 1024]⟩ : Shape).Idx → EReal) (A4 A5 : (⟨1, ![1024]⟩ : Shape).Idx → EReal)
    (A6 : (⟨2, ![1024, 1024]⟩ : Shape).Idx → EReal) (A7 A8 : (⟨1, ![1024]⟩ : Shape).Idx → EReal)
    (A9 : (⟨2, ![1024, 1024]⟩ : Shape).Idx → EReal) (A10 A11 : (⟨1, ![1024]⟩ : Shape).Idx → EReal)
    (A12 : (⟨2, ![1024, 1]⟩ : Shape).Idx → EReal) (A13 : (⟨1, ![1]⟩ : Shape).Idx → EReal) :
    (⟨2, ![65536, 1]⟩ : Shape).Idx → EReal := fun i =>
  netR (rowOf A0 (i 0)) (matOf A1) (vecOf A2) (matOf A3) (vecOf A4) (vecOf A5) (matOf A6) (vecOf A7) (vecOf A8)
    (matOf A9) (vecOf A10) (vecOf A11) (colOf A12) (A13 (ix1 (0 : Fin 1)))

end Cert.Mlp

end
-- ==== Proof.Law.lean ====
/-
  The two forms of the network agree on real inputs.

  On a row `y` of 1024 reals with mean `μ = (Σ y) / 1024`, the mean of the squares minus `μ²` is the mean of the
  squared deviations: `Σ (y − μ)² = Σ y² − 2 μ Σ y + 1024 μ²`, and `Σ y = 1024 μ`. The identity needs the divisor
  to be exactly the row length (the word `1024.0` denotes 1024) and needs `y` finite (over the extended reals
  `∞ − ∞` is not `0`). So the whole network is written once more over ℝ, and each extended-real form, on
  coerced real inputs, is shown to be the coercion of that real network, layer by layer: a dense layer of reals is
  real, a ReLU of a real is real, and a LayerNorm of reals is real because the variance is nonnegative and the
  epsilon word is a positive real, so the reciprocal root is taken of a positive number.
-/
import proofs.«101827_j83863531422003_2_alg».proof.Proof.Spec

noncomputable section

namespace Cert.Mlp

open Idealize.ShloMosaic

/-! ## The three words as reals -/

theorem zeroW_eq : zeroW = 0 := by
  simp [zeroW, Ideal.ofBits, Ideal.ieee]

theorem widthW_eq : widthW = ((1024 : ℝ) : EReal) := by
  simp [widthW, Ideal.ofBits, Ideal.ieee, -EReal.coe_mul]; norm_num

/-- The epsilon word's value: `8796093 · 2⁻⁴³`, the float nearest `1e-6`. -/
def epsR : ℝ := 8796093 * (2 : ℝ) ^ (-43 : ℤ)

theorem epsR_pos : 0 < epsR := by unfold epsR; positivity

theorem epsW_eq : epsW = (epsR : EReal) := by
  simp [epsW, epsR, Ideal.ofBits, Ideal.ieee, -EReal.coe_mul]

/-! ## Sums of coerced reals -/

theorem coe_sum {ι : Type*} (s : Finset ι) (f : ι → ℝ) :
    ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-! ## The network over ℝ -/

def reluR (x : ℝ) : ℝ := max x 0
def denseR {n k : Nat} (h : Fin n → ℝ) (W : Fin n → Fin k → ℝ) (j : Fin k) : ℝ := ∑ a, h a * W a j
def meanR (y : Fin 1024 → ℝ) : ℝ := (∑ a, y a) / 1024
def varR (y : Fin 1024 → ℝ) : ℝ := (∑ a, (y a - meanR y) * (y a - meanR y)) / 1024
def normRe (y : Fin 1024 → ℝ) (j : Fin 1024) : ℝ := (y j - meanR y) * (Real.sqrt (varR y + epsR))⁻¹

theorem varR_nonneg (y : Fin 1024 → ℝ) : 0 ≤ varR y :=
  div_nonneg (Finset.sum_nonneg fun a _ => mul_self_nonneg _) (by norm_num)

/-- The variance identity: mean of squares minus squared mean is the mean of squared deviations. -/
theorem meansq_sub_sqmean (y : Fin 1024 → ℝ) :
    (∑ a, y a * y a) / 1024 - meanR y * meanR y = varR y := by
  have hS : ∑ a, y a = 1024 * meanR y := by unfold meanR; ring
  have hexp : ∑ a, (y a - meanR y) * (y a - meanR y)
      = (∑ a, y a * y a) - 2 * meanR y * (∑ a, y a) + 1024 * (meanR y * meanR y) := by
    have : ∀ a, (y a - meanR y) * (y a - meanR y) = y a * y a - 2 * meanR y * y a + meanR y * meanR y := fun a => by ring
    simp only [this, Finset.sum_add_distrib, Finset.sum_sub_distrib, ← Finset.mul_sum, Finset.sum_const,
      Finset.card_univ, Fintype.card_fin, nsmul_eq_mul]
    norm_num
    try ring
  unfold varR
  rw [hexp, hS]
  ring

/-! ## Each extended-real piece on real inputs -/

theorem relu_coe (x : ℝ) : relu (x : EReal) = ((reluR x : ℝ) : EReal) := by
  unfold relu reluR
  rw [zeroW_eq, ← EReal.coe_zero]
  exact (EReal.coe_strictMono.monotone.map_max).symm

theorem dense_coe {n k : Nat} (h : Fin n → ℝ) (W : Fin n → Fin k → ℝ) (j : Fin k) :
    dense (fun a => ((h a : ℝ) : EReal)) (fun a j => ((W a j : ℝ) : EReal)) j = ((denseR h W j : ℝ) : EReal) := by
  unfold dense denseR
  simp only [← EReal.coe_mul]
  exact coe_sum _ _

theorem mean_coe (y : Fin 1024 → ℝ) : mean (fun a => ((y a : ℝ) : EReal)) = ((meanR y : ℝ) : EReal) := by
  unfold mean meanR
  rw [widthW_eq, Ideal.div_coe (by norm_num : (1024 : ℝ) ≠ 0), coe_sum, ← EReal.coe_mul]
  congr 1; ring

theorem rsqrt_pos_coe {r : ℝ} (h : 0 < r) : Ideal.rsqrt (r : EReal) = (((Real.sqrt r)⁻¹ : ℝ) : EReal) := by
  rw [Ideal.rsqrt_coe, if_neg (not_lt.2 h.le), if_neg h.ne']

/-- A real deviation times the reciprocal root of a positive real is real. -/
theorem centred_mul_rsqrt (d r : ℝ) (hr : 0 < r) :
    ((d : ℝ) : EReal) * Ideal.rsqrt (r : EReal) = ((d * (Real.sqrt r)⁻¹ : ℝ) : EReal) := by
  rw [rsqrt_pos_coe hr, ← EReal.coe_mul]

theorem normK_coe (y : Fin 1024 → ℝ) (j : Fin 1024) :
    normK (fun a => ((y a : ℝ) : EReal)) j = ((normRe y j : ℝ) : EReal) := by
  have harg : (∑ a, y a * y a) * (1 / 1024) - meanR y * meanR y + epsR = varR y + epsR := by
    rw [← meansq_sub_sqmean y]; ring
  unfold normK normRe
  rw [mean_coe]
  simp only [← EReal.coe_mul]
  rw [coe_sum, widthW_eq, Ideal.div_coe (by norm_num : (1024 : ℝ) ≠ 0), epsW_eq]
  simp only [← EReal.coe_mul, ← EReal.coe_sub, ← EReal.coe_add, harg]
  exact centred_mul_rsqrt _ _ (add_pos_of_nonneg_of_pos (varR_nonneg y) epsR_pos)

theorem normR_coe (y : Fin 1024 → ℝ) (j : Fin 1024) :
    normR (fun a => ((y a : ℝ) : EReal)) j = ((normRe y j : ℝ) : EReal) := by
  have harg : (∑ a, (y a - meanR y) * (y a - meanR y)) * (1 / 1024) + epsR = varR y + epsR := by
    unfold varR; ring
  unfold normR normRe
  rw [mean_coe]
  simp only [← EReal.coe_sub, ← EReal.coe_mul]
  rw [coe_sum, widthW_eq, Ideal.div_coe (by norm_num : (1024 : ℝ) ≠ 0), epsW_eq]
  simp only [← EReal.coe_mul, ← EReal.coe_add, harg]
  exact centred_mul_rsqrt _ _ (add_pos_of_nonneg_of_pos (varR_nonneg y) epsR_pos)

/-! ## Each layer on real inputs -/

theorem first_coe (x : Fin 512 → ℝ) (W : Fin 512 → Fin 1024 → ℝ) (b : Fin 1024 → ℝ) (j : Fin 1024) :
    first (fun a => ((x a : ℝ) : EReal)) (fun a j => ((W a j : ℝ) : EReal)) (fun j => ((b j : ℝ) : EReal)) j
      = ((reluR (denseR x W j + b j) : ℝ) : EReal) := by
  unfold first
  rw [dense_coe, ← EReal.coe_add, relu_coe]

theorem hiddenK_coe (h : Fin 1024 → ℝ) (W : Fin 1024 → Fin 1024 → ℝ) (g b : Fin 1024 → ℝ) (j : Fin 1024) :
    hiddenK (fun a => ((h a : ℝ) : EReal)) (fun a j => ((W a j : ℝ) : EReal)) (fun j => ((g j : ℝ) : EReal))
        (fun j => ((b j : ℝ) : EReal)) j
      = ((reluR (normRe (denseR h W) j * g j + b j) : ℝ) : EReal) := by
  unfold hiddenK
  have hd : dense (fun a => ((h a : ℝ) : EReal)) (fun a j => ((W a j : ℝ) : EReal)) = fun j => ((denseR h W j : ℝ) : EReal) :=
    funext (dense_coe h W)
  rw [hd, normK_coe, ← EReal.coe_mul, ← EReal.coe_add, relu_coe]

theorem hiddenR_coe (h : Fin 1024 → ℝ) (W : Fin 1024 → Fin 1024 → ℝ) (g b : Fin 1024 → ℝ) (j : Fin 1024) :
    hiddenR (fun a => ((h a : ℝ) : EReal)) (fun a j => ((W a j : ℝ) : EReal)) (fun j => ((g j : ℝ) : EReal))
        (fun j => ((b j : ℝ) : EReal)) j
      = ((reluR (normRe (denseR h W) j * g j + b j) : ℝ) : EReal) := by
  unfold hiddenR
  have hd : dense (fun a => ((h a : ℝ) : EReal)) (fun a j => ((W a j : ℝ) : EReal)) = fun j => ((denseR h W j : ℝ) : EReal) :=
    funext (dense_coe h W)
  rw [hd, normR_coe, ← EReal.coe_mul, ← EReal.coe_add, relu_coe]

/-- So on real inputs a hidden layer is the same function in both forms. -/
theorem hiddenK_eq_hiddenR (h : Fin 1024 → ℝ) (W : Fin 1024 → Fin 1024 → ℝ) (g b : Fin 1024 → ℝ) :
    hiddenK (fun a => ((h a : ℝ) : EReal)) (fun a j => ((W a j : ℝ) : EReal)) (fun j => ((g j : ℝ) : EReal))
        (fun j => ((b j : ℝ) : EReal))
      = hiddenR (fun a => ((h a : ℝ) : EReal)) (fun a j => ((W a j : ℝ) : EReal)) (fun j => ((g j : ℝ) : EReal))
        (fun j => ((b j : ℝ) : EReal)) :=
  funext fun j => (hiddenK_coe h W g b j).trans (hiddenR_coe h W g b j).symm

/-- And its output is again a row of reals. -/
theorem hiddenR_real (h : Fin 1024 → ℝ) (W : Fin 1024 → Fin 1024 → ℝ) (g b : Fin 1024 → ℝ) :
    hiddenR (fun a => ((h a : ℝ) : EReal)) (fun a j => ((W a j : ℝ) : EReal)) (fun j => ((g j : ℝ) : EReal))
        (fun j => ((b j : ℝ) : EReal))
      = fun j => ((reluR (normRe (denseR h W) j * g j + b j) : ℝ) : EReal) :=
  funext (hiddenR_coe h W g b)

/-! ## The whole network -/

/-- Real-valued arrays, as functions. -/
def IsReal {ι : Type*} (f : ι → EReal) : Prop := ∀ i, ∃ r : ℝ, f i = (r : EReal)

theorem IsReal.eq_coe {ι : Type*} {f : ι → EReal} (h : IsReal f) : ∃ f' : ι → ℝ, f = fun i => ((f' i : ℝ) : EReal) := by
  choose f' hf' using h
  exact ⟨f', funext hf'⟩

def IsReal₂ {ι κ : Type*} (f : ι → κ → EReal) : Prop := ∀ i j, ∃ r : ℝ, f i j = (r : EReal)

theorem IsReal₂.eq_coe {ι κ : Type*} {f : ι → κ → EReal} (h : IsReal₂ f) :
    ∃ f' : ι → κ → ℝ, f = fun i j => ((f' i j : ℝ) : EReal) := by
  choose f' hf' using h
  exact ⟨f', funext fun i => funext (hf' i)⟩

/-- On real inputs the network is the same in both forms: the first layer's output is a row of reals, each hidden
    layer keeps it so and is the same function in both forms, and the output layer is the same expression. -/
theorem netK_eq_netR (x : Fin 512 → EReal) (W0 : Fin 512 → Fin 1024 → EReal) (b0 : Fin 1024 → EReal)
    (W1 : Fin 1024 → Fin 1024 → EReal) (g1 be1 : Fin 1024 → EReal)
    (W2 : Fin 1024 → Fin 1024 → EReal) (g2 be2 : Fin 1024 → EReal)
    (W3 : Fin 1024 → Fin 1024 → EReal) (g3 be3 : Fin 1024 → EReal)
    (wo : Fin 1024 → EReal) (bo : EReal)
    (hx : IsReal x) (hW0 : IsReal₂ W0) (hb0 : IsReal b0) (hW1 : IsReal₂ W1) (hg1 : IsReal g1) (hbe1 : IsReal be1)
    (hW2 : IsReal₂ W2) (hg2 : IsReal g2) (hbe2 : IsReal be2) (hW3 : IsReal₂ W3) (hg3 : IsReal g3) (hbe3 : IsReal be3) :
    netK x W0 b0 W1 g1 be1 W2 g2 be2 W3 g3 be3 wo bo = netR x W0 b0 W1 g1 be1 W2 g2 be2 W3 g3 be3 wo bo := by
  obtain ⟨x', rfl⟩ := hx.eq_coe
  obtain ⟨W0', rfl⟩ := hW0.eq_coe
  obtain ⟨b0', rfl⟩ := hb0.eq_coe
  obtain ⟨W1', rfl⟩ := hW1.eq_coe
  obtain ⟨g1', rfl⟩ := hg1.eq_coe
  obtain ⟨be1', rfl⟩ := hbe1.eq_coe
  obtain ⟨W2', rfl⟩ := hW2.eq_coe
  obtain ⟨g2', rfl⟩ := hg2.eq_coe
  obtain ⟨be2', rfl⟩ := hbe2.eq_coe
  obtain ⟨W3', rfl⟩ := hW3.eq_coe
  obtain ⟨g3', rfl⟩ := hg3.eq_coe
  obtain ⟨be3', rfl⟩ := hbe3.eq_coe
  unfold netK netR
  have h0 : first (fun a => ((x' a : ℝ) : EReal)) (fun a j => ((W0' a j : ℝ) : EReal)) (fun j => ((b0' j : ℝ) : EReal))
      = fun j => ((reluR (denseR x' W0' j + b0' j) : ℝ) : EReal) := funext (first_coe x' W0' b0')
  rw [h0, hiddenK_eq_hiddenR, hiddenR_real, hiddenK_eq_hiddenR, hiddenR_real, hiddenK_eq_hiddenR]

/-- The result arrays of the two forms agree when every argument array holds reals. -/
theorem outK_eq_outR (A0 : (⟨2, ![65536, 512]⟩ : Shape).Idx → EReal) (A1 : (⟨2, ![512, 1024]⟩ : Shape).Idx → EReal)
    (A2 : (⟨1, ![1024]⟩ : Shape).Idx → EReal)
    (A3 : (⟨2, ![1024, 1024]⟩ : Shape).Idx → EReal) (A4 A5 : (⟨1, ![1024]⟩ : Shape).Idx → EReal)
    (A6 : (⟨2, ![1024, 1024]⟩ : Shape).Idx → EReal) (A7 A8 : (⟨1, ![1024]⟩ : Shape).Idx → EReal)
    (A9 : (⟨2, ![1024, 1024]⟩ : Shape).Idx → EReal) (A10 A11 : (⟨1, ![1024]⟩ : Shape).Idx → EReal)
    (A12 : (⟨2, ![1024, 1]⟩ : Shape).Idx → EReal) (A13 : (⟨1, ![1]⟩ : Shape).Idx → EReal)
    (h0 : IsReal A0) (h1 : IsReal A1) (h2 : IsReal A2) (h3 : IsReal A3) (h4 : IsReal A4) (h5 : IsReal A5)
    (h6 : IsReal A6) (h7 : IsReal A7) (h8 : IsReal A8) (h9 : IsReal A9) (h10 : IsReal A10) (h11 : IsReal A11) :
    outK A0 A1 A2 A3 A4 A5 A6 A7 A8 A9 A10 A11 A12 A13 = outR A0 A1 A2 A3 A4 A5 A6 A7 A8 A9 A10 A11 A12 A13 := by
  funext i
  unfold outK outR
  exact netK_eq_netR _ _ _ _ _ _ _ _ _ _ _ _ _ _ (fun a => h0 _) (fun a j => h1 _) (fun j => h2 _) (fun a j => h3 _)
    (fun j => h4 _) (fun j => h5 _) (fun a j => h6 _) (fun j => h7 _) (fun j => h8 _) (fun a j => h9 _)
    (fun j => h10 _) (fun j => h11 _)

end Cert.Mlp

end
-- ==== Proof.KOps.lean ====
/-
  The kernel body's operations that are not pointwise, each read at one entry.

  A block of the kernel is a `[1024, n]` array of rows. A matrix product's entry `(p, q)` is the sum over `k` of
  row `p` of the left operand times column `q` of the right one (into a zero accumulator); a lane sum followed by
  the cast `[1024] → [1024, 1]` has at `(p, 0)` the sum of row `p`; a column `[1024, 1]` broadcast along the lanes
  reads `(p, 0)` at every `(p, q)`, a row `[1, 1024]` broadcast down the rows reads `(0, q)`, and the `[1, 1]` bias
  broadcast to a column reads `(0, 0)`.
-/
import proofs.«101827_j83863531422003_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.Mlp.KOps

open Idealize.ShloMosaic Idealize.ShloMosaic.ValueIdx Cert.KernelIdeal Cert.KernelIdeal.Facts₀

/-! ## Layout -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcast_col_apply (v : FVec Ideal S1024x1 .f32) (p q : Fin 1024) :
    broadcastTo S1024x1024 v broadcasts_S1024x1_S1024x1024 (ix2 p q) = v (ix2 p (0 : Fin 1)) :=
  broadcastTo_a1_ab_apply v _ p q

theorem bcast_row_apply (v : FVec Ideal S1x1024 .f32) (p q : Fin 1024) :
    broadcastTo S1024x1024 v broadcasts_S1x1024_S1024x1024 (ix2 p q) = v (ix2 (0 : Fin 1) q) :=
  broadcastTo_1b_ab_apply v _ p q

theorem bcast_one_apply (v : FVec Ideal S1x1 .f32) (p : Fin 1024) (u : Fin 1) :
    broadcastTo S1024x1 v broadcasts_S1x1_S1024x1 (ix2 p u) = v (ix2 (0 : Fin 1) u) :=
  broadcastTo_1b_ab_apply v _ p u

/-! ## A row's sum -/

/-- The lane sum of a `[1024, 1024]` block, cast to a column, has at `(p, ·)` the sum of row `p`. -/
theorem rowsum_col_apply (v : FVec Ideal S1024x1024 .f32) (hφ : FKind.Formats .f32)
    (hacc : (0x00000000#32 : BitVec 32) = 0x00000000#32) (p : Fin 1024) (u : Fin 1) :
    shapeCast S1024x1 (multiReduction .add [1] S1024 v 0x00000000#32 reduces_S1024x1024_S1024 hφ hacc)
        shapeCasts_S1024_S1024x1 (ix2 p u)
      = ∑ k : Fin 1024, v (ix2 p k) := by
  rw [shapeCast_a_a1_apply]
  refine (Ideal.multiReduction_add_single v 0x00000000#32 reduces_S1024x1024_S1024 hφ hacc (ix1 p)).trans ?_
  refine Finset.sum_congr rfl fun k _ => congrArg v (funext fun c => Fin.ext ?_)
  match c with
  | ⟨0, _⟩ => rfl
  | ⟨1, _⟩ => rfl

/-! ## The three matrix products -/

/-- The first layer's product: 1024 rows of 512 descriptors times the `[512, 1024]` weights. -/
theorem mm_in_apply (a : FVec Ideal S1024x512 .bf16) (w : FVec Ideal S512x1024 .bf16) (p : Fin 1024) (q : Fin 1024) :
    matmul dot_S1024x512_S512x1024_S1024x1024_1_0_0_1_n_n none a w (constant S1024x1024 .f32 0x00000000#32) (ix2 p q)
      = ∑ k : Fin 512, a (ix2 p k) * w (ix2 k q) := by
  refine (Ideal.matmul_constant_zero_apply dot_S1024x512_S512x1024_S1024x1024_1_0_0_1_n_n none a w (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun c => Fin.ext (by
      match c with
      | ⟨0, _⟩ =>
        show (dot_S1024x512_S512x1024_S1024x1024_1_0_0_1_n_n.lhsIdx (ix2 p q) _ 0).val = p.val
        unfold DotDims.lhsIdx
        rw [dif_neg (show ¬(0 : Fin S1024x512.rank) ∈ dot_S1024x512_S512x1024_S1024x1024_1_0_0_1_n_n.lhsBatch by decide),
          dif_pos (show (0 : Fin S1024x512.rank) ∈ dot_S1024x512_S512x1024_S1024x1024_1_0_0_1_n_n.lhsNonContracting by decide)]
        rfl
      | ⟨1, _⟩ => exact (DotDims.lhsIdx_val_of_single dot_S1024x512_S512x1024_S1024x1024_1_0_0_1_n_n (cl := 1) rfl _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun c => Fin.ext (by
      match c with
      | ⟨0, _⟩ => exact (DotDims.rhsIdx_val_of_single dot_S1024x512_S512x1024_S1024x1024_1_0_0_1_n_n (cr := 0) rfl _ _).trans hk
      | ⟨1, _⟩ =>
        show (dot_S1024x512_S512x1024_S1024x1024_1_0_0_1_n_n.rhsIdx (ix2 p q) _ 1).val = q.val
        unfold DotDims.rhsIdx
        rw [dif_neg (show ¬(1 : Fin S512x1024.rank) ∈ dot_S1024x512_S512x1024_S1024x1024_1_0_0_1_n_n.rhsBatch by decide),
          dif_pos (show (1 : Fin S512x1024.rank) ∈ dot_S1024x512_S512x1024_S1024x1024_1_0_0_1_n_n.rhsNonContracting by decide)]
        rfl)
  rw [el, er]

/-- A hidden layer's product: 1024 rows of 1024 activations times the `[1024, 1024]` weights. -/
theorem mm_hid_apply (a : FVec Ideal S1024x1024 .bf16) (w : FVec Ideal S1024x1024 .bf16) (p : Fin 1024) (q : Fin 1024) :
    matmul dot_S1024x1024_S1024x1024_S1024x1024_1_0_0_1_n_n none a w (constant S1024x1024 .f32 0x00000000#32) (ix2 p q)
      = ∑ k : Fin 1024, a (ix2 p k) * w (ix2 k q) := by
  refine (Ideal.matmul_constant_zero_apply dot_S1024x1024_S1024x1024_S1024x1024_1_0_0_1_n_n none a w (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun c => Fin.ext (by
      match c with
      | ⟨0, _⟩ =>
        show (dot_S1024x1024_S1024x1024_S1024x1024_1_0_0_1_n_n.lhsIdx (ix2 p q) _ 0).val = p.val
        unfold DotDims.lhsIdx
        rw [dif_neg (show ¬(0 : Fin S1024x1024.rank) ∈ dot_S1024x1024_S1024x1024_S1024x1024_1_0_0_1_n_n.lhsBatch by decide),
          dif_pos (show (0 : Fin S1024x1024.rank) ∈ dot_S1024x1024_S1024x1024_S1024x1024_1_0_0_1_n_n.lhsNonContracting by decide)]
        rfl
      | ⟨1, _⟩ => exact (DotDims.lhsIdx_val_of_single dot_S1024x1024_S1024x1024_S1024x1024_1_0_0_1_n_n (cl := 1) rfl _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun c => Fin.ext (by
      match c with
      | ⟨0, _⟩ => exact (DotDims.rhsIdx_val_of_single dot_S1024x1024_S1024x1024_S1024x1024_1_0_0_1_n_n (cr := 0) rfl _ _).trans hk
      | ⟨1, _⟩ =>
        show (dot_S1024x1024_S1024x1024_S1024x1024_1_0_0_1_n_n.rhsIdx (ix2 p q) _ 1).val = q.val
        unfold DotDims.rhsIdx
        rw [dif_neg (show ¬(1 : Fin S1024x1024.rank) ∈ dot_S1024x1024_S1024x1024_S1024x1024_1_0_0_1_n_n.rhsBatch by decide),
          dif_pos (show (1 : Fin S1024x1024.rank) ∈ dot_S1024x1024_S1024x1024_S1024x1024_1_0_0_1_n_n.rhsNonContracting by decide)]
        rfl)
  rw [el, er]

/-- The output layer's product: 1024 rows of 1024 activations times the one output column. -/
theorem mm_out_apply (a : FVec Ideal S1024x1024 .bf16) (w : FVec Ideal S1024x1 .bf16) (p : Fin 1024) (q : Fin 1) :
    matmul dot_S1024x1024_S1024x1_S1024x1_1_0_0_1_n_n none a w (constant S1024x1 .f32 0x00000000#32) (ix2 p q)
      = ∑ k : Fin 1024, a (ix2 p k) * w (ix2 k q) := by
  refine (Ideal.matmul_constant_zero_apply dot_S1024x1024_S1024x1_S1024x1_1_0_0_1_n_n none a w (ix2 p q)).trans ?_
  rw [← Equiv.sum_comp (contrEquiv1 dot_S1024x1024_S1024x1_S1024x1_1_0_0_1_n_n 1024 rfl rfl).symm]
  refine Finset.sum_congr rfl fun k _ => ?_
  have hk := contrEquiv1_symm_val dot_S1024x1024_S1024x1_S1024x1_1_0_0_1_n_n 1024 rfl rfl k
  have el : dot_S1024x1024_S1024x1_S1024x1_1_0_0_1_n_n.lhsIdx (ix2 p q)
      ((contrEquiv1 dot_S1024x1024_S1024x1_S1024x1_1_0_0_1_n_n 1024 rfl rfl).symm k) = ix2 p k :=
    funext fun c => Fin.ext (by
      match c with
      | ⟨0, _⟩ =>
        show (dot_S1024x1024_S1024x1_S1024x1_1_0_0_1_n_n.lhsIdx (ix2 p q) _ 0).val = p.val
        unfold DotDims.lhsIdx
        rw [dif_neg (show ¬(0 : Fin S1024x1024.rank) ∈ dot_S1024x1024_S1024x1_S1024x1_1_0_0_1_n_n.lhsBatch by decide),
          dif_pos (show (0 : Fin S1024x1024.rank) ∈ dot_S1024x1024_S1024x1_S1024x1_1_0_0_1_n_n.lhsNonContracting by decide)]
        rfl
      | ⟨1, _⟩ => exact (DotDims.lhsIdx_val_of_single dot_S1024x1024_S1024x1_S1024x1_1_0_0_1_n_n (cl := 1) rfl _ _).trans hk)
  have er : dot_S1024x1024_S1024x1_S1024x1_1_0_0_1_n_n.rhsIdx (ix2 p q)
      ((contrEquiv1 dot_S1024x1024_S1024x1_S1024x1_1_0_0_1_n_n 1024 rfl rfl).symm k) = ix2 k q :=
    funext fun c => Fin.ext (by
      match c with
      | ⟨0, _⟩ => exact (DotDims.rhsIdx_val_of_single dot_S1024x1024_S1024x1_S1024x1_1_0_0_1_n_n (cr := 0) rfl _ _).trans hk
      | ⟨1, _⟩ =>
        show (dot_S1024x1024_S1024x1_S1024x1_1_0_0_1_n_n.rhsIdx (ix2 p q) _ 1).val = q.val
        unfold DotDims.rhsIdx
        rw [dif_neg (show ¬(1 : Fin S1024x1.rank) ∈ dot_S1024x1024_S1024x1_S1024x1_1_0_0_1_n_n.rhsBatch by decide),
          dif_pos (show (1 : Fin S1024x1.rank) ∈ dot_S1024x1024_S1024x1_S1024x1_1_0_0_1_n_n.rhsNonContracting by decide)]
        rfl)
  rw [el, er]

/-- The reciprocal root of a block, entry by entry. -/
theorem rsqrt_apply {s : Shape} (v : FVec Ideal s .f32) (i : s.Idx) : rsqrt v i = Ideal.rsqrt (v i) := rfl

end Cert.Mlp.KOps

end
-- ==== Proof.KPay.lean ====
/-
  What the kernel body stores for one row of a block.

  The body's value is five nested terms: the first layer and the first hidden layer up to the LayerNorm's gain
  (`k0_pay2`), the first offset row (`k0_pay3`), the second hidden layer and the third product (`k0_pay4`), that
  product's row sums (`k0_pay5`), and the third LayerNorm with the output layer (`k0_pay1`). Each is read at an
  entry `(p, q)` of its block: every pointwise operation acts entry by entry, a product's entry is a row times a
  column, a row sum is the sum over the row, and a broadcast repeats a row or a column. Put together, entry
  `(p, 0)` of the stored block is the network `netK` on row `p` of the descriptor block, with the weights, gains
  and offsets read off the resident blocks.
-/
import proofs.«101827_j83863531422003_2_alg».proof.Proof.Gen.KernelIdeal.Skeleton
import proofs.«101827_j83863531422003_2_alg».proof.Proof.KOps
import proofs.«101827_j83863531422003_2_alg».proof.Proof.Spec

noncomputable section

namespace Cert.Mlp.KPay

open Idealize.ShloMosaic Idealize.ShloMosaic.ValueIdx Cert.KernelIdeal Cert.KernelIdeal.Gen Cert.KernelIdeal.Facts₀
  Cert.Mlp Cert.Mlp.KOps

/-- A `[1, 1024]` block (a bias, gain or offset row) as a vector. -/
def rowVec (v : (⟨2, ![1, 1024]⟩ : Shape).Idx → EReal) : Fin 1024 → EReal := fun j => v (ix2 (0 : Fin 1) j)

/-- The first layer and the first hidden layer up to the gain: entry `(p, q)` is the normalised entry `q` of the
    dense image of the first layer's row `p`, times the gain at `q`. -/
theorem pay2_apply (x0 : Vec Ideal S1024x512 .bf16) (x1 : Vec Ideal S512x1024 .bf16) (x2 : Vec Ideal S1x1024 .f32)
    (x3 : Vec Ideal S1024x1024 .bf16) (x4 : Vec Ideal S1x1024 .f32) (p q : Fin 1024) :
    k0_pay2 x0 x1 x2 x3 x4 (ix2 p q)
      = normK (dense (first (rowOf x0 p) (matOf x1) (rowVec x2)) (matOf x3)) q * rowVec x4 q := by
  simp only [k0_pay2, mulf_apply, subf_apply, addf_apply, divf_apply, maximumf_apply, truncf_apply, broadcast_apply,
    rsqrt_apply, shapeCast_self, bcast_col_apply, bcast_row_apply, bcast_one_apply, mm_in_apply,
    mm_hid_apply, mm_out_apply]
  repeat rw [rowsum_col_apply]
  simp only [mulf_apply, subf_apply, addf_apply, divf_apply, maximumf_apply, truncf_apply, broadcast_apply,
    rsqrt_apply, shapeCast_self, bcast_col_apply, bcast_row_apply, bcast_one_apply, mm_in_apply,
    mm_hid_apply, mm_out_apply]
  rfl

/-- The offset row is loaded as it is. -/
theorem pay3_eq (x5 : Vec Ideal S1x1024 .f32) : k0_pay3 x5 = x5 := by
  unfold k0_pay3
  exact shapeCast_self _ _

/-- The second hidden layer and the third product: entry `(p, q)` is the dense image, at `q`, of the second hidden
    layer applied to the first hidden layer's row `p` (the incoming value plus its offset, through the ReLU). -/
theorem pay4_apply (v36 : FVec Ideal S1024x1024 .f32) (v38 : FVec Ideal S1x1024 .f32) (x6 : Vec Ideal S1024x1024 .bf16)
    (x7 x8 : Vec Ideal S1x1024 .f32) (x9 : Vec Ideal S1024x1024 .bf16) (p q : Fin 1024) :
    k0_pay4 v36 v38 x6 x7 x8 x9 (ix2 p q)
      = dense (hiddenK (fun k => relu (v36 (ix2 p k) + rowVec v38 k)) (matOf x6) (rowVec x7) (rowVec x8)) (matOf x9) q := by
  simp only [k0_pay4, mulf_apply, subf_apply, addf_apply, divf_apply, maximumf_apply, truncf_apply, broadcast_apply,
    rsqrt_apply, shapeCast_self, bcast_col_apply, bcast_row_apply, bcast_one_apply, mm_in_apply,
    mm_hid_apply, mm_out_apply]
  repeat rw [rowsum_col_apply]
  simp only [mulf_apply, subf_apply, addf_apply, divf_apply, maximumf_apply, truncf_apply, broadcast_apply,
    rsqrt_apply, shapeCast_self, bcast_col_apply, bcast_row_apply, bcast_one_apply, mm_in_apply,
    mm_hid_apply, mm_out_apply]
  rfl

/-- The row sums of the third product. -/
theorem pay5_apply (v36 : FVec Ideal S1024x1024 .f32) (v38 : FVec Ideal S1x1024 .f32) (x6 : Vec Ideal S1024x1024 .bf16)
    (x7 x8 : Vec Ideal S1x1024 .f32) (x9 : Vec Ideal S1024x1024 .bf16) (p : Fin 1024) (u : Fin 1) :
    k0_pay5 v36 v38 x6 x7 x8 x9 (ix2 p u) = ∑ q : Fin 1024, k0_pay4 v36 v38 x6 x7 x8 x9 (ix2 p q) := by
  unfold k0_pay5
  exact rowsum_col_apply (k0_pay4 v36 v38 x6 x7 x8 x9) _ _ p u

/-- The third LayerNorm and the output layer, given that the incoming column holds the incoming block's row sums. -/
theorem pay1_apply (v78 : FVec Ideal S1024x1024 .f32) (v80 : FVec Ideal S1024x1 .f32) (x10 x11 : Vec Ideal S1x1024 .f32)
    (x12 : Vec Ideal S1024x1 .bf16) (x13 : Vec Ideal S1x1 .f32) (p : Fin 1024)
    (hs : v80 (ix2 p (0 : Fin 1)) = ∑ k : Fin 1024, v78 (ix2 p k)) :
    k0_pay1 v78 v80 x10 x11 x12 x13 (ix2 p (0 : Fin 1))
      = last (fun k => relu (normK (fun a => v78 (ix2 p a)) k * rowVec x10 k + rowVec x11 k)) (colOf x12)
          (x13 (ix2 (0 : Fin 1) (0 : Fin 1))) := by
  simp only [k0_pay1, mulf_apply, subf_apply, addf_apply, divf_apply, maximumf_apply, truncf_apply, broadcast_apply,
    rsqrt_apply, shapeCast_self, bcast_col_apply, bcast_row_apply, bcast_one_apply, mm_in_apply,
    mm_hid_apply, mm_out_apply, hs]
  repeat rw [rowsum_col_apply]
  simp only [mulf_apply, subf_apply, addf_apply, divf_apply, maximumf_apply, truncf_apply, broadcast_apply,
    rsqrt_apply, shapeCast_self, bcast_col_apply, bcast_row_apply, bcast_one_apply, mm_in_apply,
    mm_hid_apply, mm_out_apply]
  rfl

/-- Entry `(p, 0)` of the stored block is the network on row `p` of the descriptor block. -/
theorem body_apply (x0 : Vec Ideal S1024x512 .bf16) (x1 : Vec Ideal S512x1024 .bf16) (x2 : Vec Ideal S1x1024 .f32)
    (x3 : Vec Ideal S1024x1024 .bf16) (x4 x5 : Vec Ideal S1x1024 .f32)
    (x6 : Vec Ideal S1024x1024 .bf16) (x7 x8 : Vec Ideal S1x1024 .f32)
    (x9 : Vec Ideal S1024x1024 .bf16) (x10 x11 : Vec Ideal S1x1024 .f32)
    (x12 : Vec Ideal S1024x1 .bf16) (x13 : Vec Ideal S1x1 .f32) (p : Fin 1024) :
    k0_pay1 (k0_pay4 (k0_pay2 x0 x1 x2 x3 x4) (k0_pay3 x5) x6 x7 x8 x9)
        (k0_pay5 (k0_pay2 x0 x1 x2 x3 x4) (k0_pay3 x5) x6 x7 x8 x9) x10 x11 x12 x13 (ix2 p (0 : Fin 1))
      = netK (rowOf x0 p) (matOf x1) (rowVec x2) (matOf x3) (rowVec x4) (rowVec x5) (matOf x6) (rowVec x7) (rowVec x8)
          (matOf x9) (rowVec x10) (rowVec x11) (colOf x12) (x13 (ix2 (0 : Fin 1) (0 : Fin 1))) := by
  rw [pay1_apply _ _ x10 x11 x12 x13 p (pay5_apply _ _ x6 x7 x8 x9 p 0)]
  simp only [pay4_apply, pay2_apply, pay3_eq]
  rfl

end Cert.Mlp.KPay

end
-- ==== Proof.KBlocks.lean ====
/-
  From the kernel's blocks to its result array.

  The call runs on a grid of 64 points. Point `t` stages rows `1024 t … 1024 t + 1023` of the descriptors (cast to
  bf16 beforehand, which changes nothing over the extended reals) and the whole of every weight, gain, offset and
  bias array (the vectors reshaped to one row beforehand), and writes back rows `1024 t … 1024 t + 1023` of the
  result. So what point `t` writes is block `t` of one whole-array function, `outK` of the argument arrays: entry
  `(1024 t + p, 0)` is the network on descriptor row `1024 t + p`. The 64 blocks cover the `[65536, 1]` result (row
  `r` lies in block `r / 1024`), so after the run the result array is `outK` of the arguments.
-/
import proofs.«101827_j83863531422003_2_alg».proof.Proof.Gen.KernelIdeal.Value
import proofs.«101827_j83863531422003_2_alg».proof.Proof.KPay
import Idealize.ShloMosaic.Lib.ValueIdx
import Idealize.ShloMosaic.Lib.ValueLayout
import Idealize.ShloMosaic.Lib.StableHlo.Run

noncomputable section

namespace Cert.Mlp.KBlocks

open Cert.KernelIdeal Cert.KernelIdeal.Gen Cert.KernelIdeal.Value Idealize.ShloMosaic
  Idealize.ShloMosaic.TcCoe Idealize.SL.Sem Idealize.ShloMosaic.ValueIdx Idealize.ShloMosaic.StableHlo Cert.Mlp Cert.Mlp.KPay
open Idealize.ShloMosaic.Pipeline (Dat)

variable (m : (ℓ : Loc nD τ sig) → Buf (Elt Ideal) ℓ) (ρ : Dev nD → PrngReg)

/-! ## What the region finds in each window's array -/

theorem V_main_v0 (c : Dev nD) (i : S65536x512.Idx) : V m c main_v0 i = m ((c : Thread nD τ).loc main_arg0) i := by
  have e : V m c main_v0
      = (truncf .bf16 (m ((c : Thread nD τ).loc main_arg0)) Facts₀.bitsLt_bf16_f32 : FVec Ideal S65536x512 .bf16) := by
    dsimp only [V, hostOps0]; after_results <;> rfl
  exact congrFun e i

theorem V_main_v1 (c : Dev nD) (i : S512x1024.Idx) : V m c main_v1 i = m ((c : Thread nD τ).loc main_arg1) i := by
  have e : V m c main_v1
      = (truncf .bf16 (m ((c : Thread nD τ).loc main_arg1)) Facts₀.bitsLt_bf16_f32 : FVec Ideal S512x1024 .bf16) := by
    dsimp only [V, hostOps0]; after_results <;> rfl
  exact congrFun e i

theorem V_main_v6 (c : Dev nD) (j : Fin 1024) :
    V m c main_v6 (ix2 (0 : Fin 1) j) = m ((c : Thread nD τ).loc main_arg2) (ix1 j) := by
  have e : (V m c main_v6 : S1x1024.Idx → EReal)
      = shapeCast S1x1024 (m ((c : Thread nD τ).loc main_arg2)) Facts₀.shapeCasts_S1024_S1x1024 := by
    dsimp only [V, hostOps0]; after_results <;> rfl
  exact (congrFun e _).trans (shapeCast_a_1a_apply _ _ 0 j)

theorem V_main_v2 (c : Dev nD) (i : S1024x1024.Idx) : V m c main_v2 i = m ((c : Thread nD τ).loc main_arg3) i := by
  have e : V m c main_v2
      = (truncf .bf16 (m ((c : Thread nD τ).loc main_arg3)) Facts₀.bitsLt_bf16_f32 : FVec Ideal S1024x1024 .bf16) := by
    dsimp only [V, hostOps0]; after_results <;> rfl
  exact congrFun e i

theorem V_main_v7 (c : Dev nD) (j : Fin 1024) :
    V m c main_v7 (ix2 (0 : Fin 1) j) = m ((c : Thread nD τ).loc main_arg4) (ix1 j) := by
  have e : (V m c main_v7 : S1x1024.Idx → EReal)
      = shapeCast S1x1024 (m ((c : Thread nD τ).loc main_arg4)) Facts₀.shapeCasts_S1024_S1x1024 := by
    dsimp only [V, hostOps0]; after_results <;> rfl
  exact (congrFun e _).trans (shapeCast_a_1a_apply _ _ 0 j)

theorem V_main_v8 (c : Dev nD) (j : Fin 1024) :
    V m c main_v8 (ix2 (0 : Fin 1) j) = m ((c : Thread nD τ).loc main_arg5) (ix1 j) := by
  have e : (V m c main_v8 : S1x1024.Idx → EReal)
      = shapeCast S1x1024 (m ((c : Thread nD τ).loc main_arg5)) Facts₀.shapeCasts_S1024_S1x1024 := by
    dsimp only [V, hostOps0]; after_results <;> rfl
  exact (congrFun e _).trans (shapeCast_a_1a_apply _ _ 0 j)

theorem V_main_v3 (c : Dev nD) (i : S1024x1024.Idx) : V m c main_v3 i = m ((c : Thread nD τ).loc main_arg6) i := by
  have e : V m c main_v3
      = (truncf .bf16 (m ((c : Thread nD τ).loc main_arg6)) Facts₀.bitsLt_bf16_f32 : FVec Ideal S1024x1024 .bf16) := by
    dsimp only [V, hostOps0]; after_results <;> rfl
  exact congrFun e i

theorem V_main_v9 (c : Dev nD) (j : Fin 1024) :
    V m c main_v9 (ix2 (0 : Fin 1) j) = m ((c : Thread nD τ).loc main_arg7) (ix1 j) := by
  have e : (V m c main_v9 : S1x1024.Idx → EReal)
      = shapeCast S1x1024 (m ((c : Thread nD τ).loc main_arg7)) Facts₀.shapeCasts_S1024_S1x1024 := by
    dsimp only [V, hostOps0]; after_results <;> rfl
  exact (congrFun e _).trans (shapeCast_a_1a_apply _ _ 0 j)

theorem V_main_v10 (c : Dev nD) (j : Fin 1024) :
    V m c main_v10 (ix2 (0 : Fin 1) j) = m ((c : Thread nD τ).loc main_arg8) (ix1 j) := by
  have e : (V m c main_v10 : S1x1024.Idx → EReal)
      = shapeCast S1x1024 (m ((c : Thread nD τ).loc main_arg8)) Facts₀.shapeCasts_S1024_S1x1024 := by
    dsimp only [V, hostOps0]; after_results <;> rfl
  exact (congrFun e _).trans (shapeCast_a_1a_apply _ _ 0 j)

theorem V_main_v4 (c : Dev nD) (i : S1024x1024.Idx) : V m c main_v4 i = m ((c : Thread nD τ).loc main_arg9) i := by
  have e : V m c main_v4
      = (truncf .bf16 (m ((c : Thread nD τ).loc main_arg9)) Facts₀.bitsLt_bf16_f32 : FVec Ideal S1024x1024 .bf16) := by
    dsimp only [V, hostOps0]; after_results <;> rfl
  exact congrFun e i

theorem V_main_v11 (c : Dev nD) (j : Fin 1024) :
    V m c main_v11 (ix2 (0 : Fin 1) j) = m ((c : Thread nD τ).loc main_arg10) (ix1 j) := by
  have e : (V m c main_v11 : S1x1024.Idx → EReal)
      = shapeCast S1x1024 (m ((c : Thread nD τ).loc main_arg10)) Facts₀.shapeCasts_S1024_S1x1024 := by
    dsimp only [V, hostOps0]; after_results <;> rfl
  exact (congrFun e _).trans (shapeCast_a_1a_apply _ _ 0 j)

theorem V_main_v12 (c : Dev nD) (j : Fin 1024) :
    V m c main_v12 (ix2 (0 : Fin 1) j) = m ((c : Thread nD τ).loc main_arg11) (ix1 j) := by
  have e : (V m c main_v12 : S1x1024.Idx → EReal)
      = shapeCast S1x1024 (m ((c : Thread nD τ).loc main_arg11)) Facts₀.shapeCasts_S1024_S1x1024 := by
    dsimp only [V, hostOps0]; after_results <;> rfl
  exact (congrFun e _).trans (shapeCast_a_1a_apply _ _ 0 j)

theorem V_main_v5 (c : Dev nD) (i : S1024x1.Idx) : V m c main_v5 i = m ((c : Thread nD τ).loc main_arg12) i := by
  have e : V m c main_v5
      = (truncf .bf16 (m ((c : Thread nD τ).loc main_arg12)) Facts₀.bitsLt_bf16_f32 : FVec Ideal S1024x1 .bf16) := by
    dsimp only [V, hostOps0]; after_results <;> rfl
  exact congrFun e i

theorem V_main_v13 (c : Dev nD) (j : Fin 1) :
    V m c main_v13 (ix2 (0 : Fin 1) j) = m ((c : Thread nD τ).loc main_arg13) (ix1 j) := by
  have e : (V m c main_v13 : S1x1.Idx → EReal)
      = shapeCast S1x1 (m ((c : Thread nD τ).loc main_arg13)) Facts₀.shapeCasts_S1_S1x1 := by
    dsimp only [V, hostOps0]; after_results <;> rfl
  exact (congrFun e _).trans (shapeCast_a_1a_apply _ _ 0 j)

/-! ## Each window's block at a grid point -/

/-- The printed index maps, decided over the 64 grid points: the descriptor window and the output window sit at block
    row `t`, every other window at block `(0, 0)` (it is resident). -/
theorem idx_facts : ∀ t : Fin cfg0.N,
    win0_14.index t (0 : Fin 2) = t.val
    ∧ win0_14.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- The descriptor window's block at point `t` holds rows `1024 t … 1024 t + 1023` of the descriptors. -/
theorem blk0 (c : Dev nD) (t : Fin cfg0.N) (p : Fin 1024) (k : Fin 512) (r : Fin 65536) (hr : r.val = t.val * 1024 + p.val) :
    iblk m c 0 t (ix2 p k) = m ((c : Thread nD τ).loc main_arg0) (ix2 r k) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v0 (((cfg0.win 0).blk t).view.emb (ix2 p k)) = _
  refine (V_main_v0 m c _).trans (congrArg _ (funext fun a => Fin.ext ?_))
  match a with
  | ⟨0, _⟩ => show win0_0.index t (0 : Fin 2) * 1024 + 1 * p.val = r.val; omega
  | ⟨1, _⟩ => show win0_0.index t (1 : Fin 2) * 512 + 1 * k.val = k.val; omega

theorem blk1 (c : Dev nD) (t : Fin cfg0.N) (k : Fin 512) (j : Fin 1024) :
    iblk m c 1 t (ix2 k j) = m ((c : Thread nD τ).loc main_arg1) (ix2 k j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v1 (((cfg0.win 1).blk t).view.emb (ix2 k j)) = _
  refine (V_main_v1 m c _).trans (congrArg _ (funext fun a => Fin.ext ?_))
  match a with
  | ⟨0, _⟩ => show win0_1.index t (0 : Fin 2) * 512 + 1 * k.val = k.val; omega
  | ⟨1, _⟩ => show win0_1.index t (1 : Fin 2) * 1024 + 1 * j.val = j.val; omega

theorem blk2 (c : Dev nD) (t : Fin cfg0.N) (j : Fin 1024) :
    iblk m c 2 t (ix2 (0 : Fin 1) j) = m ((c : Thread nD τ).loc main_arg2) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v6 (((cfg0.win 2).blk t).view.emb (ix2 (0 : Fin 1) j)) = _
  refine Eq.trans (congrArg _ (funext fun a => Fin.ext ?_)) (V_main_v6 m c j)
  match a with
  | ⟨0, _⟩ => show win0_2.index t (0 : Fin 2) * 1 + 1 * (0 : Fin 1).val = (0 : Fin 1).val; omega
  | ⟨1, _⟩ => show win0_2.index t (1 : Fin 2) * 1024 + 1 * j.val = j.val; omega

theorem blk3 (c : Dev nD) (t : Fin cfg0.N) (k : Fin 1024) (j : Fin 1024) :
    iblk m c 3 t (ix2 k j) = m ((c : Thread nD τ).loc main_arg3) (ix2 k j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v2 (((cfg0.win 3).blk t).view.emb (ix2 k j)) = _
  refine (V_main_v2 m c _).trans (congrArg _ (funext fun a => Fin.ext ?_))
  match a with
  | ⟨0, _⟩ => show win0_3.index t (0 : Fin 2) * 1024 + 1 * k.val = k.val; omega
  | ⟨1, _⟩ => show win0_3.index t (1 : Fin 2) * 1024 + 1 * j.val = j.val; omega

theorem blk4 (c : Dev nD) (t : Fin cfg0.N) (j : Fin 1024) :
    iblk m c 4 t (ix2 (0 : Fin 1) j) = m ((c : Thread nD τ).loc main_arg4) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v7 (((cfg0.win 4).blk t).view.emb (ix2 (0 : Fin 1) j)) = _
  refine Eq.trans (congrArg _ (funext fun a => Fin.ext ?_)) (V_main_v7 m c j)
  match a with
  | ⟨0, _⟩ => show win0_4.index t (0 : Fin 2) * 1 + 1 * (0 : Fin 1).val = (0 : Fin 1).val; omega
  | ⟨1, _⟩ => show win0_4.index t (1 : Fin 2) * 1024 + 1 * j.val = j.val; omega

theorem blk5 (c : Dev nD) (t : Fin cfg0.N) (j : Fin 1024) :
    iblk m c 5 t (ix2 (0 : Fin 1) j) = m ((c : Thread nD τ).loc main_arg5) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v8 (((cfg0.win 5).blk t).view.emb (ix2 (0 : Fin 1) j)) = _
  refine Eq.trans (congrArg _ (funext fun a => Fin.ext ?_)) (V_main_v8 m c j)
  match a with
  | ⟨0, _⟩ => show win0_5.index t (0 : Fin 2) * 1 + 1 * (0 : Fin 1).val = (0 : Fin 1).val; omega
  | ⟨1, _⟩ => show win0_5.index t (1 : Fin 2) * 1024 + 1 * j.val = j.val; omega

theorem blk6 (c : Dev nD) (t : Fin cfg0.N) (k : Fin 1024) (j : Fin 1024) :
    iblk m c 6 t (ix2 k j) = m ((c : Thread nD τ).loc main_arg6) (ix2 k j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v3 (((cfg0.win 6).blk t).view.emb (ix2 k j)) = _
  refine (V_main_v3 m c _).trans (congrArg _ (funext fun a => Fin.ext ?_))
  match a with
  | ⟨0, _⟩ => show win0_6.index t (0 : Fin 2) * 1024 + 1 * k.val = k.val; omega
  | ⟨1, _⟩ => show win0_6.index t (1 : Fin 2) * 1024 + 1 * j.val = j.val; omega

theorem blk7 (c : Dev nD) (t : Fin cfg0.N) (j : Fin 1024) :
    iblk m c 7 t (ix2 (0 : Fin 1) j) = m ((c : Thread nD τ).loc main_arg7) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v9 (((cfg0.win 7).blk t).view.emb (ix2 (0 : Fin 1) j)) = _
  refine Eq.trans (congrArg _ (funext fun a => Fin.ext ?_)) (V_main_v9 m c j)
  match a with
  | ⟨0, _⟩ => show win0_7.index t (0 : Fin 2) * 1 + 1 * (0 : Fin 1).val = (0 : Fin 1).val; omega
  | ⟨1, _⟩ => show win0_7.index t (1 : Fin 2) * 1024 + 1 * j.val = j.val; omega

theorem blk8 (c : Dev nD) (t : Fin cfg0.N) (j : Fin 1024) :
    iblk m c 8 t (ix2 (0 : Fin 1) j) = m ((c : Thread nD τ).loc main_arg8) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v10 (((cfg0.win 8).blk t).view.emb (ix2 (0 : Fin 1) j)) = _
  refine Eq.trans (congrArg _ (funext fun a => Fin.ext ?_)) (V_main_v10 m c j)
  match a with
  | ⟨0, _⟩ => show win0_8.index t (0 : Fin 2) * 1 + 1 * (0 : Fin 1).val = (0 : Fin 1).val; omega
  | ⟨1, _⟩ => show win0_8.index t (1 : Fin 2) * 1024 + 1 * j.val = j.val; omega

theorem blk9 (c : Dev nD) (t : Fin cfg0.N) (k : Fin 1024) (j : Fin 1024) :
    iblk m c 9 t (ix2 k j) = m ((c : Thread nD τ).loc main_arg9) (ix2 k j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v4 (((cfg0.win 9).blk t).view.emb (ix2 k j)) = _
  refine (V_main_v4 m c _).trans (congrArg _ (funext fun a => Fin.ext ?_))
  match a with
  | ⟨0, _⟩ => show win0_9.index t (0 : Fin 2) * 1024 + 1 * k.val = k.val; omega
  | ⟨1, _⟩ => show win0_9.index t (1 : Fin 2) * 1024 + 1 * j.val = j.val; omega

theorem blk10 (c : Dev nD) (t : Fin cfg0.N) (j : Fin 1024) :
    iblk m c 10 t (ix2 (0 : Fin 1) j) = m ((c : Thread nD τ).loc main_arg10) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v11 (((cfg0.win 10).blk t).view.emb (ix2 (0 : Fin 1) j)) = _
  refine Eq.trans (congrArg _ (funext fun a => Fin.ext ?_)) (V_main_v11 m c j)
  match a with
  | ⟨0, _⟩ => show win0_10.index t (0 : Fin 2) * 1 + 1 * (0 : Fin 1).val = (0 : Fin 1).val; omega
  | ⟨1, _⟩ => show win0_10.index t (1 : Fin 2) * 1024 + 1 * j.val = j.val; omega

theorem blk11 (c : Dev nD) (t : Fin cfg0.N) (j : Fin 1024) :
    iblk m c 11 t (ix2 (0 : Fin 1) j) = m ((c : Thread nD τ).loc main_arg11) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v12 (((cfg0.win 11).blk t).view.emb (ix2 (0 : Fin 1) j)) = _
  refine Eq.trans (congrArg _ (funext fun a => Fin.ext ?_)) (V_main_v12 m c j)
  match a with
  | ⟨0, _⟩ => show win0_11.index t (0 : Fin 2) * 1 + 1 * (0 : Fin 1).val = (0 : Fin 1).val; omega
  | ⟨1, _⟩ => show win0_11.index t (1 : Fin 2) * 1024 + 1 * j.val = j.val; omega

theorem blk12 (c : Dev nD) (t : Fin cfg0.N) (k : Fin 1024) (j : Fin 1) :
    iblk m c 12 t (ix2 k j) = m ((c : Thread nD τ).loc main_arg12) (ix2 k j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v5 (((cfg0.win 12).blk t).view.emb (ix2 k j)) = _
  refine (V_main_v5 m c _).trans (congrArg _ (funext fun a => Fin.ext ?_))
  match a with
  | ⟨0, _⟩ => show win0_12.index t (0 : Fin 2) * 1024 + 1 * k.val = k.val; omega
  | ⟨1, _⟩ => show win0_12.index t (1 : Fin 2) * 1 + 1 * j.val = j.val; omega

theorem blk13 (c : Dev nD) (t : Fin cfg0.N) (j : Fin 1) :
    iblk m c 13 t (ix2 (0 : Fin 1) j) = m ((c : Thread nD τ).loc main_arg13) (ix1 j) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  show V m c main_v13 (((cfg0.win 13).blk t).view.emb (ix2 (0 : Fin 1) j)) = _
  refine Eq.trans (congrArg _ (funext fun a => Fin.ext ?_)) (V_main_v13 m c j)
  match a with
  | ⟨0, _⟩ => show win0_13.index t (0 : Fin 2) * 1 + 1 * (0 : Fin 1).val = (0 : Fin 1).val; omega
  | ⟨1, _⟩ => show win0_13.index t (1 : Fin 2) * 1 + 1 * j.val = j.val; omega

/-! ## What point `t` writes back -/

theorem hz : (![0, 0] : Fin 2 → Nat) = fun _ => 0 := funext fun a => by fin_cases a <;> rfl

/-- The network depends on its fourteen arguments only. -/
theorem netK_congr {x x' : Fin 512 → EReal} {W0 W0' : Fin 512 → Fin 1024 → EReal} {b0 b0' : Fin 1024 → EReal}
    {W1 W1' : Fin 1024 → Fin 1024 → EReal} {g1 g1' be1 be1' : Fin 1024 → EReal}
    {W2 W2' : Fin 1024 → Fin 1024 → EReal} {g2 g2' be2 be2' : Fin 1024 → EReal}
    {W3 W3' : Fin 1024 → Fin 1024 → EReal} {g3 g3' be3 be3' : Fin 1024 → EReal}
    {wo wo' : Fin 1024 → EReal} {bo bo' : EReal}
    (h0 : x = x') (h1 : W0 = W0') (h2 : b0 = b0') (h3 : W1 = W1') (h4 : g1 = g1') (h5 : be1 = be1')
    (h6 : W2 = W2') (h7 : g2 = g2') (h8 : be2 = be2') (h9 : W3 = W3') (h10 : g3 = g3') (h11 : be3 = be3')
    (h12 : wo = wo') (h13 : bo = bo') :
    netK x W0 b0 W1 g1 be1 W2 g2 be2 W3 g3 be3 wo bo = netK x' W0' b0' W1' g1' be1' W2' g2' be2' W3' g3' be3' wo' bo' := by
  subst h0 h1 h2 h3 h4 h5 h6 h7 h8 h9 h10 h11 h12 h13; rfl

/-- The result array the kernel ends with, as one function of the argument arrays. -/
abbrev result (c : Dev nD) : S65536x1.Idx → EReal :=
  outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Point `t` writes back block `t` of `result`: entry `(p, 0)` of the stored block is the network on row `p` of
    the staged descriptor block, which is row `1024 t + p` of the descriptors, and the resident blocks are the whole
    weight, gain, offset and bias arrays. -/
theorem flushed_eq (c : Dev nD) (t : Fin cfg0.N) :
    (dats m 0 c).flushed 14 t = ((cfg0.win 14).blk t).view.read (Elt Ideal) (result m c) := by
  obtain ⟨o0, o1, a0, a1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  rw [flushed14]
  unfold out0_14
  rw [View.canon_unit_zero hz]
  simp only [View.ld_unit_zero (S := S1024x512) hz, View.ld_unit_zero (S := S512x1024) hz,
    View.ld_unit_zero (S := S1x1024) hz, View.ld_unit_zero (S := S1024x1024) hz, View.ld_unit_zero (S := S1024x1) hz,
    View.ld_unit_zero (S := S1x1) hz]
  funext y
  obtain ⟨p, u, rfl⟩ : ∃ (p : Fin 1024) (u : Fin 1), y = ix2 p u := ⟨y 0, y 1, eq_ix2 y⟩
  obtain rfl : u = 0 := Subsingleton.elim _ _
  have hN : cfg0.N = 64 := N_0
  have hr : t.val * 1024 + p.val < 65536 := by have := t.isLt; have := p.isLt; omega
  have hemb : ((cfg0.win 14).blk t).view.emb (ix2 p (0 : Fin 1)) = ix2 (⟨t.val * 1024 + p.val, hr⟩ : Fin 65536) (0 : Fin 1) :=
    funext fun a => Fin.ext (by
      match a with
      | ⟨0, _⟩ => show win0_14.index t (0 : Fin 2) * 1024 + 1 * p.val = t.val * 1024 + p.val; omega
      | ⟨1, _⟩ => show win0_14.index t (1 : Fin 2) * 1 + 1 * (0 : Fin 1).val = (0 : Fin 1).val; omega)
  refine (body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) p).trans ?_
  show _ = result m c (((cfg0.win 14).blk t).view.emb (ix2 p (0 : Fin 1)))
  rw [hemb]
  exact netK_congr (funext fun k => blk0 m c t p k _ rfl) (funext fun k => funext fun j => blk1 m c t k j)
    (funext fun j => blk2 m c t j) (funext fun k => funext fun j => blk3 m c t k j) (funext fun j => blk4 m c t j)
    (funext fun j => blk5 m c t j) (funext fun k => funext fun j => blk6 m c t k j) (funext fun j => blk7 m c t j)
    (funext fun j => blk8 m c t j) (funext fun k => funext fun j => blk9 m c t k j) (funext fun j => blk10 m c t j)
    (funext fun j => blk11 m c t j) (funext fun k => blk12 m c t k 0) (blk13 m c t 0)

/-! ## The blocks cover the result -/

/-- An index of the result is in point `t`'s block iff each coordinate is in the block's range on its axis. -/
theorem mem_blk (t : Fin cfg0.N) (i : S65536x1.Idx) :
    i ∈ ((cfg0.win 14).blk t).view.set ↔ ∀ a : Fin 2, win0_14.index t a * S1024x1.size a ≤ (i a).val
      ∧ (i a).val < win0_14.index t a * S1024x1.size a + S1024x1.size a := by
  show i ∈ ((View.whole main_v14).slice (win0_14.rect t)).set ↔ _
  rw [View.set_slice_whole, Rect.mem_set_unit]
  exact Iff.rfl

/-- Row `r` of the result lies in the block of point `r / 1024`. -/
theorem cover (i : S65536x1.Idx) :
    ∃ t : Fin cfg0.N, (cfg0.win 14).flush t = true ∧ i ∈ ((cfg0.win 14).blk t).view.set := by
  have hi0 : (i 0).val < 65536 := (i 0).isLt
  have hi1 : (i 1).val < 1 := (i 1).isLt
  have hN : cfg0.N = 64 := N_0
  have ht : (i 0).val / 1024 < cfg0.N := by rw [hN]; omega
  obtain ⟨o0, o1, -⟩ := idx_facts ⟨(i 0).val / 1024, ht⟩
  refine ⟨⟨(i 0).val / 1024, ht⟩, flush0_14 _, ?_⟩
  rw [mem_blk]
  intro a
  match a with
  | ⟨0, _⟩ =>
    show win0_14.index ⟨(i 0).val / 1024, ht⟩ (0 : Fin 2) * 1024 ≤ (i 0).val
      ∧ (i 0).val < win0_14.index ⟨(i 0).val / 1024, ht⟩ (0 : Fin 2) * 1024 + 1024
    rw [o0]
    show (i 0).val / 1024 * 1024 ≤ (i 0).val ∧ (i 0).val < (i 0).val / 1024 * 1024 + 1024
    omega
  | ⟨1, _⟩ =>
    show win0_14.index ⟨(i 0).val / 1024, ht⟩ (1 : Fin 2) * 1 ≤ (i 1).val
      ∧ (i 1).val < win0_14.index ⟨(i 0).val / 1024, ht⟩ (1 : Fin 2) * 1 + 1
    rw [o1]
    omega

/-- So the result array ends holding `result`. -/
theorem final (c : Dev nD) : (dats m 0 c).arrAt 14 cfg0.N = result m c :=
  (dats m 0 c).arrAt_eq_of_cover 14 (result m c) (fun t _ => flushed_eq m c t) cover

/-! ## The run, read -/

/-- Every weakly fair execution of the kernel's program ends with the result array at `result` and the arguments
    unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.Mlp.KBlocks

end
-- ==== Proof.RefValue.lean ====
/-
  The reference program, read one row at a time, is the network of `Spec.lean` with the LayerNorms in the
  reference's form.

  Each stage below reads one group of the reference's operations at the entry `(r, j)` of a row `r`: the first dense
  layer with its bias and ReLU; then, for each of the three hidden layers, the dot product with the weights, the row's
  mean, the mean of the squared deviations from it, and the normalised, scaled, shifted and rectified entry; then the
  output layer. A sum that the reference starts from the word `+0.0` is the plain sum, since that word is the
  extended real `0`. The last theorem chains the stages: the result array at `(r, ·)` is `netR` on row `r`.
-/
import proofs.«101827_j83863531422003_2_alg».proof.Proof.RefRead
import proofs.«101827_j83863531422003_2_alg».proof.Proof.Spec
import Idealize.ShloMosaic.PureOps.Ideal.Laws
import Idealize.ShloMosaic.Lib.ValueIdx

noncomputable section

namespace Cert.Mlp.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- Two indices of a two-axis shape are equal when both coordinates are. -/
local macro "idx2" : tactic =>
  `(tactic| exact funext fun a => Fin.ext (by match a with | ⟨0, _⟩ => rfl | ⟨1, _⟩ => rfl))
/-- Two indices of a one-axis shape are equal when the coordinate is. -/
local macro "idx1" : tactic =>
  `(tactic| exact funext fun a => Fin.ext (by match a with | ⟨0, _⟩ => rfl))

variable (x0 : (⟨S65536x512, .f32⟩ : BufTy).Contents (Elt Ideal))
  (x1 : (⟨S512x1024, .f32⟩ : BufTy).Contents (Elt Ideal))
  (x2 : (⟨S1024, .f32⟩ : BufTy).Contents (Elt Ideal))
  (x3 : (⟨S1024x1024, .f32⟩ : BufTy).Contents (Elt Ideal))
  (x4 : (⟨S1024, .f32⟩ : BufTy).Contents (Elt Ideal))
  (x5 : (⟨S1024, .f32⟩ : BufTy).Contents (Elt Ideal))
  (x6 : (⟨S1024x1024, .f32⟩ : BufTy).Contents (Elt Ideal))
  (x7 : (⟨S1024, .f32⟩ : BufTy).Contents (Elt Ideal))
  (x8 : (⟨S1024, .f32⟩ : BufTy).Contents (Elt Ideal))
  (x9 : (⟨S1024x1024, .f32⟩ : BufTy).Contents (Elt Ideal))
  (x10 : (⟨S1024, .f32⟩ : BufTy).Contents (Elt Ideal))
  (x11 : (⟨S1024, .f32⟩ : BufTy).Contents (Elt Ideal))
  (x12 : (⟨S1024x1, .f32⟩ : BufTy).Contents (Elt Ideal))
  (x13 : (⟨S1, .f32⟩ : BufTy).Contents (Elt Ideal))

/-! ## The first layer -/

/-- Entry `(r, j)` after the first layer: row `r` of the descriptors times column `j` of the weights, plus the bias,
    rectified. -/
theorem first_row (r : Fin 65536) (j : Fin 1024) :
    val_main_v4 (F := Ideal) x0 x1 x2 (ix2 r j) = Mlp.first (Mlp.rowOf x0 r) (Mlp.matOf x1) (Mlp.vecOf x2) j := by
  rw [val_main_v4_apply, val_main_v3_apply, val_main_v0_apply, val_main_v2_apply, val_main_v1_apply,
    val_main_call0_v0_apply, val_main_call0_cst_apply,
    show idx_main_v1 (idx_main_v2 (ix2 r j)) = ix1 j by idx1]
  have hs : (∑ k : Fin 512, x0 (lidx_main_v0 (ix2 r j) k) * x1 (ridx_main_v0 (ix2 r j) k))
      = ∑ k : Fin 512, x0 (ix2 r k) * x1 (ix2 k j) :=
    Finset.sum_congr rfl fun k _ => by
      rw [show lidx_main_v0 (ix2 r j) k = ix2 r k by idx2, show ridx_main_v0 (ix2 r j) k = ix2 k j by idx2]
  rw [hs]
  rfl

/-! ## The first hidden layer -/

/-- The dot product: entry `(r, j)` is row `r` of the previous layer's output times column `j` of the weights. -/
theorem dot1_row (r : Fin 65536) (j : Fin 1024) :
    val_main_v5 (F := Ideal) x0 x1 x2 x3 (ix2 r j) = Mlp.dense (fun k => val_main_v4 (F := Ideal) x0 x1 x2 (ix2 r k)) (Mlp.matOf x3) j := by
  rw [val_main_v5_apply]
  unfold Mlp.dense Mlp.matOf
  refine Finset.sum_congr rfl fun k _ => ?_
  rw [show lidx_main_v5 (ix2 r j) k = ix2 r k by idx2, show ridx_main_v5 (ix2 r j) k = ix2 k j by idx2]

/-- The mean of row `r` of the dot product: its sum over the width word. -/
theorem mean1_row (r : Fin 65536) (y : Fin 1024 → EReal) (hy : ∀ k, val_main_v5 (F := Ideal) x0 x1 x2 x3 (ix2 r k) = y k) :
    val_main_v9 (F := Ideal) x0 x1 x2 x3 (ix2 r (0 : Fin 1)) = Mlp.mean y := by
  rw [val_main_v9_apply, val_main_v7_apply, val_main_v6_apply, val_main_v8_apply, val_main_cst_0_apply, val_main_cst_apply]
  show Ideal.div (Ideal.ofBits .f32 0x00000000#32 + _) (Ideal.ofBits .f32 0x44800000#32) = _
  rw [Ideal.ofBits_zero_f32, zero_add]
  unfold Mlp.mean Mlp.widthW
  refine congrArg (fun s => Ideal.div s _) (Finset.sum_congr rfl fun k _ => ?_)
  rw [show idx_main_v6 (idx_main_v7 (ix2 r (0 : Fin 1))) k = ix2 r k by idx2, hy k]

/-- The variance of row `r` in the reference's form: the mean of the squared deviations from the row's mean. -/
theorem var1_row (r : Fin 65536) (y : Fin 1024 → EReal) (hy : ∀ k, val_main_v5 (F := Ideal) x0 x1 x2 x3 (ix2 r k) = y k) :
    val_main_v16 (F := Ideal) x0 x1 x2 x3 (ix2 r (0 : Fin 1))
      = Ideal.div (∑ k : Fin 1024, (y k - Mlp.mean y) * (y k - Mlp.mean y)) Mlp.widthW := by
  rw [val_main_v16_apply, val_main_v14_apply, val_main_v13_apply, val_main_v15_apply, val_main_cst_2_apply, val_main_cst_1_apply]
  show Ideal.div (Ideal.ofBits .f32 0x00000000#32 + _) (Ideal.ofBits .f32 0x44800000#32) = _
  rw [Ideal.ofBits_zero_f32, zero_add]
  unfold Mlp.widthW
  refine congrArg (fun s => Ideal.div s _) (Finset.sum_congr rfl fun k _ => ?_)
  rw [show idx_main_v13 (idx_main_v14 (ix2 r (0 : Fin 1))) k = ix2 r k by idx2, val_main_v12_apply, val_main_v11_apply, val_main_v10_apply,
    show idx_main_v10 (ix2 r k) = ix2 r (0 : Fin 1) by idx2, hy k, mean1_row x0 x1 x2 x3 r y hy]
  rfl

/-- Entry `(r, j)` of the layer's output: the centred entry times the reciprocal root of (variance + ε), times the
    gain, plus the offset, rectified. -/
theorem out1_row (r : Fin 65536) (j : Fin 1024) (y : Fin 1024 → EReal) (hy : ∀ k, val_main_v5 (F := Ideal) x0 x1 x2 x3 (ix2 r k) = y k) :
    val_main_v30 (F := Ideal) x0 x1 x2 x3 x4 x5 (ix2 r j) = Mlp.relu (Mlp.normR y j * x4 (ix1 j) + x5 (ix1 j)) := by
  rw [val_main_v30_apply, val_main_v29_apply, val_main_v26_apply, val_main_v23_apply, val_main_v18_apply, val_main_v17_apply, val_main_v22_apply,
    val_main_v21_apply, val_main_v20_apply, val_main_v19_apply, val_main_cst_3_apply, val_main_v25_apply, val_main_v24_apply, val_main_v28_apply,
    val_main_v27_apply, val_main_call1_v0_apply, val_main_call1_cst_apply,
    show idx_main_v17 (ix2 r j) = ix2 r (0 : Fin 1) by idx2, show idx_main_v22 (ix2 r j) = ix2 r (0 : Fin 1) by idx2,
    show idx_main_v24 (idx_main_v25 (ix2 r j)) = ix1 j by idx1, show idx_main_v27 (idx_main_v28 (ix2 r j)) = ix1 j by idx1,
    hy j, var1_row x0 x1 x2 x3 r y hy, mean1_row x0 x1 x2 x3 r y hy]
  rfl

/-- Entry `(r, j)` after the first hidden layer is `hiddenR` on row `r` of the layer before. -/
theorem hidden1_row (r : Fin 65536) (j : Fin 1024) :
    val_main_v30 (F := Ideal) x0 x1 x2 x3 x4 x5 (ix2 r j)
      = Mlp.hiddenR (fun k => val_main_v4 (F := Ideal) x0 x1 x2 (ix2 r k)) (Mlp.matOf x3) (Mlp.vecOf x4) (Mlp.vecOf x5) j :=
  out1_row x0 x1 x2 x3 x4 x5 r j _ (dot1_row x0 x1 x2 x3 r)

/-! ## The second hidden layer -/

/-- The dot product: entry `(r, j)` is row `r` of the previous layer's output times column `j` of the weights. -/
theorem dot2_row (r : Fin 65536) (j : Fin 1024) :
    val_main_v31 (F := Ideal) x0 x1 x2 x3 x4 x5 x6 (ix2 r j) = Mlp.dense (fun k => val_main_v30 (F := Ideal) x0 x1 x2 x3 x4 x5 (ix2 r k)) (Mlp.matOf x6) j := by
  rw [val_main_v31_apply]
  unfold Mlp.dense Mlp.matOf
  refine Finset.sum_congr rfl fun k _ => ?_
  rw [show lidx_main_v31 (ix2 r j) k = ix2 r k by idx2, show ridx_main_v31 (ix2 r j) k = ix2 k j by idx2]

/-- The mean of row `r` of the dot product: its sum over the width word. -/
theorem mean2_row (r : Fin 65536) (y : Fin 1024 → EReal) (hy : ∀ k, val_main_v31 (F := Ideal) x0 x1 x2 x3 x4 x5 x6 (ix2 r k) = y k) :
    val_main_v35 (F := Ideal) x0 x1 x2 x3 x4 x5 x6 (ix2 r (0 : Fin 1)) = Mlp.mean y := by
  rw [val_main_v35_apply, val_main_v33_apply, val_main_v32_apply, val_main_v34_apply, val_main_cst_5_apply, val_main_cst_4_apply]
  show Ideal.div (Ideal.ofBits .f32 0x00000000#32 + _) (Ideal.ofBits .f32 0x44800000#32) = _
  rw [Ideal.ofBits_zero_f32, zero_add]
  unfold Mlp.mean Mlp.widthW
  refine congrArg (fun s => Ideal.div s _) (Finset.sum_congr rfl fun k _ => ?_)
  rw [show idx_main_v32 (idx_main_v33 (ix2 r (0 : Fin 1))) k = ix2 r k by idx2, hy k]

/-- The variance of row `r` in the reference's form: the mean of the squared deviations from the row's mean. -/
theorem var2_row (r : Fin 65536) (y : Fin 1024 → EReal) (hy : ∀ k, val_main_v31 (F := Ideal) x0 x1 x2 x3 x4 x5 x6 (ix2 r k) = y k) :
    val_main_v42 (F := Ideal) x0 x1 x2 x3 x4 x5 x6 (ix2 r (0 : Fin 1))
      = Ideal.div (∑ k : Fin 1024, (y k - Mlp.mean y) * (y k - Mlp.mean y)) Mlp.widthW := by
  rw [val_main_v42_apply, val_main_v40_apply, val_main_v39_apply, val_main_v41_apply, val_main_cst_7_apply, val_main_cst_6_apply]
  show Ideal.div (Ideal.ofBits .f32 0x00000000#32 + _) (Ideal.ofBits .f32 0x44800000#32) = _
  rw [Ideal.ofBits_zero_f32, zero_add]
  unfold Mlp.widthW
  refine congrArg (fun s => Ideal.div s _) (Finset.sum_congr rfl fun k _ => ?_)
  rw [show idx_main_v39 (idx_main_v40 (ix2 r (0 : Fin 1))) k = ix2 r k by idx2, val_main_v38_apply, val_main_v37_apply, val_main_v36_apply,
    show idx_main_v36 (ix2 r k) = ix2 r (0 : Fin 1) by idx2, hy k, mean2_row x0 x1 x2 x3 x4 x5 x6 r y hy]
  rfl

/-- Entry `(r, j)` of the layer's output: the centred entry times the reciprocal root of (variance + ε), times the
    gain, plus the offset, rectified. -/
theorem out2_row (r : Fin 65536) (j : Fin 1024) (y : Fin 1024 → EReal) (hy : ∀ k, val_main_v31 (F := Ideal) x0 x1 x2 x3 x4 x5 x6 (ix2 r k) = y k) :
    val_main_v56 (F := Ideal) x0 x1 x2 x3 x4 x5 x6 x7 x8 (ix2 r j) = Mlp.relu (Mlp.normR y j * x7 (ix1 j) + x8 (ix1 j)) := by
  rw [val_main_v56_apply, val_main_v55_apply, val_main_v52_apply, val_main_v49_apply, val_main_v44_apply, val_main_v43_apply, val_main_v48_apply,
    val_main_v47_apply, val_main_v46_apply, val_main_v45_apply, val_main_cst_8_apply, val_main_v51_apply, val_main_v50_apply, val_main_v54_apply,
    val_main_v53_apply, val_main_call2_v0_apply, val_main_call2_cst_apply,
    show idx_main_v43 (ix2 r j) = ix2 r (0 : Fin 1) by idx2, show idx_main_v48 (ix2 r j) = ix2 r (0 : Fin 1) by idx2,
    show idx_main_v50 (idx_main_v51 (ix2 r j)) = ix1 j by idx1, show idx_main_v53 (idx_main_v54 (ix2 r j)) = ix1 j by idx1,
    hy j, var2_row x0 x1 x2 x3 x4 x5 x6 r y hy, mean2_row x0 x1 x2 x3 x4 x5 x6 r y hy]
  rfl

/-- Entry `(r, j)` after the second hidden layer is `hiddenR` on row `r` of the layer before. -/
theorem hidden2_row (r : Fin 65536) (j : Fin 1024) :
    val_main_v56 (F := Ideal) x0 x1 x2 x3 x4 x5 x6 x7 x8 (ix2 r j)
      = Mlp.hiddenR (fun k => val_main_v30 (F := Ideal) x0 x1 x2 x3 x4 x5 (ix2 r k)) (Mlp.matOf x6) (Mlp.vecOf x7) (Mlp.vecOf x8) j :=
  out2_row x0 x1 x2 x3 x4 x5 x6 x7 x8 r j _ (dot2_row x0 x1 x2 x3 x4 x5 x6 r)

/-! ## The third hidden layer -/

/-- The dot product: entry `(r, j)` is row `r` of the previous layer's output times column `j` of the weights. -/
theorem dot3_row (r : Fin 65536) (j : Fin 1024) :
    val_main_v57 (F := Ideal) x0 x1 x2 x3 x4 x5 x6 x7 x8 x9 (ix2 r j) = Mlp.dense (fun k => val_main_v56 (F := Ideal) x0 x1 x2 x3 x4 x5 x6 x7 x8 (ix2 r k)) (Mlp.matOf x9) j := by
  rw [val_main_v57_apply]
  unfold Mlp.dense Mlp.matOf
  refine Finset.sum_congr rfl fun k _ => ?_
  rw [show lidx_main_v57 (ix2 r j) k = ix2 r k by idx2, show ridx_main_v57 (ix2 r j) k = ix2 k j by idx2]

/-- The mean of row `r` of the dot product: its sum over the width word. -/
theorem mean3_row (r : Fin 65536) (y : Fin 1024 → EReal) (hy : ∀ k, val_main_v57 (F := Ideal) x0 x1 x2 x3 x4 x5 x6 x7 x8 x9 (ix2 r k) = y k) :
    val_main_v61 (F := Ideal) x0 x1 x2 x3 x4 x5 x6 x7 x8 x9 (ix2 r (0 : Fin 1)) = Mlp.mean y := by
  rw [val_main_v61_apply, val_main_v59_apply, val_main_v58_apply, val_main_v60_apply, val_main_cst_10_apply, val_main_cst_9_apply]
  show Ideal.div (Ideal.ofBits .f32 0x00000000#32 + _) (Ideal.ofBits .f32 0x44800000#32) = _
  rw [Ideal.ofBits_zero_f32, zero_add]
  unfold Mlp.mean Mlp.widthW
  refine congrArg (fun s => Ideal.div s _) (Finset.sum_congr rfl fun k _ => ?_)
  rw [show idx_main_v58 (idx_main_v59 (ix2 r (0 : Fin 1))) k = ix2 r k by idx2, hy k]

/-- The variance of row `r` in the reference's form: the mean of the squared deviations from the row's mean. -/
theorem var3_row (r : Fin 65536) (y : Fin 1024 → EReal) (hy : ∀ k, val_main_v57 (F := Ideal) x0 x1 x2 x3 x4 x5 x6 x7 x8 x9 (ix2 r k) = y k) :
    val_main_v68 (F := Ideal) x0 x1 x2 x3 x4 x5 x6 x7 x8 x9 (ix2 r (0 : Fin 1))
      = Ideal.div (∑ k : Fin 1024, (y k - Mlp.mean y) * (y k - Mlp.mean y)) Mlp.widthW := by
  rw [val_main_v68_apply, val_main_v66_apply, val_main_v65_apply, val_main_v67_apply, val_main_cst_12_apply, val_main_cst_11_apply]
  show Ideal.div (Ideal.ofBits .f32 0x00000000#32 + _) (Ideal.ofBits .f32 0x44800000#32) = _
  rw [Ideal.ofBits_zero_f32, zero_add]
  unfold Mlp.widthW
  refine congrArg (fun s => Ideal.div s _) (Finset.sum_congr rfl fun k _ => ?_)
  rw [show idx_main_v65 (idx_main_v66 (ix2 r (0 : Fin 1))) k = ix2 r k by idx2, val_main_v64_apply, val_main_v63_apply, val_main_v62_apply,
    show idx_main_v62 (ix2 r k) = ix2 r (0 : Fin 1) by idx2, hy k, mean3_row x0 x1 x2 x3 x4 x5 x6 x7 x8 x9 r y hy]
  rfl

/-- Entry `(r, j)` of the layer's output: the centred entry times the reciprocal root of (variance + ε), times the
    gain, plus the offset, rectified. -/
theorem out3_row (r : Fin 65536) (j : Fin 1024) (y : Fin 1024 → EReal) (hy : ∀ k, val_main_v57 (F := Ideal) x0 x1 x2 x3 x4 x5 x6 x7 x8 x9 (ix2 r k) = y k) :
    val_main_v82 (F := Ideal) x0 x1 x2 x3 x4 x5 x6 x7 x8 x9 x10 x11 (ix2 r j) = Mlp.relu (Mlp.normR y j * x10 (ix1 j) + x11 (ix1 j)) := by
  rw [val_main_v82_apply, val_main_v81_apply, val_main_v78_apply, val_main_v75_apply, val_main_v70_apply, val_main_v69_apply, val_main_v74_apply,
    val_main_v73_apply, val_main_v72_apply, val_main_v71_apply, val_main_cst_13_apply, val_main_v77_apply, val_main_v76_apply, val_main_v80_apply,
    val_main_v79_apply, val_main_call3_v0_apply, val_main_call3_cst_apply,
    show idx_main_v69 (ix2 r j) = ix2 r (0 : Fin 1) by idx2, show idx_main_v74 (ix2 r j) = ix2 r (0 : Fin 1) by idx2,
    show idx_main_v76 (idx_main_v77 (ix2 r j)) = ix1 j by idx1, show idx_main_v79 (idx_main_v80 (ix2 r j)) = ix1 j by idx1,
    hy j, var3_row x0 x1 x2 x3 x4 x5 x6 x7 x8 x9 r y hy, mean3_row x0 x1 x2 x3 x4 x5 x6 x7 x8 x9 r y hy]
  rfl

/-- Entry `(r, j)` after the third hidden layer is `hiddenR` on row `r` of the layer before. -/
theorem hidden3_row (r : Fin 65536) (j : Fin 1024) :
    val_main_v82 (F := Ideal) x0 x1 x2 x3 x4 x5 x6 x7 x8 x9 x10 x11 (ix2 r j)
      = Mlp.hiddenR (fun k => val_main_v56 (F := Ideal) x0 x1 x2 x3 x4 x5 x6 x7 x8 (ix2 r k)) (Mlp.matOf x9) (Mlp.vecOf x10) (Mlp.vecOf x11) j :=
  out3_row x0 x1 x2 x3 x4 x5 x6 x7 x8 x9 x10 x11 r j _ (dot3_row x0 x1 x2 x3 x4 x5 x6 x7 x8 x9 r)

/-! ## The output layer -/

/-- Entry `(r, ·)` of the result: row `r` of the last hidden layer times the one output column, plus the bias,
    rectified. -/
theorem last_row (r : Fin 65536) (u : Fin 1) :
    val_main_v87 (F := Ideal) x0 x1 x2 x3 x4 x5 x6 x7 x8 x9 x10 x11 x12 x13 (ix2 r u)
      = Mlp.last (fun k => val_main_v82 (F := Ideal) x0 x1 x2 x3 x4 x5 x6 x7 x8 x9 x10 x11 (ix2 r k)) (Mlp.colOf x12) (x13 (ix1 (0 : Fin 1))) := by
  obtain rfl : u = 0 := Subsingleton.elim _ _
  rw [val_main_v87_apply, val_main_v86_apply, val_main_v83_apply, val_main_v85_apply, val_main_v84_apply,
    val_main_call4_v0_apply, val_main_call4_cst_apply,
    show idx_main_v84 (idx_main_v85 (ix2 r (0 : Fin 1))) = ix1 (0 : Fin 1) by idx1]
  have hs : (∑ k : Fin 1024, val_main_v82 (F := Ideal) x0 x1 x2 x3 x4 x5 x6 x7 x8 x9 x10 x11 (lidx_main_v83 (ix2 r (0 : Fin 1)) k) * x12 (ridx_main_v83 (ix2 r (0 : Fin 1)) k))
      = ∑ k : Fin 1024, val_main_v82 (F := Ideal) x0 x1 x2 x3 x4 x5 x6 x7 x8 x9 x10 x11 (ix2 r k) * x12 (ix2 k (0 : Fin 1)) :=
    Finset.sum_congr rfl fun k _ => by
      rw [show lidx_main_v83 (ix2 r (0 : Fin 1)) k = ix2 r k by idx2,
        show ridx_main_v83 (ix2 r (0 : Fin 1)) k = ix2 k (0 : Fin 1) by idx2]
  rw [hs]
  rfl

/-! ## The whole reference -/

/-- The reference's result array is the network, LayerNorms in the reference's form, on each row of the descriptors. -/
theorem val_eq_outR :
    val_main_v87 (F := Ideal) x0 x1 x2 x3 x4 x5 x6 x7 x8 x9 x10 x11 x12 x13 = Mlp.outR x0 x1 x2 x3 x4 x5 x6 x7 x8 x9 x10 x11 x12 x13 := by
  funext i
  obtain ⟨r, u, rfl⟩ : ∃ (r : Fin 65536) (u : Fin 1), i = ix2 r u := ⟨i 0, i 1, eq_ix2 i⟩
  have h0 : (fun k => val_main_v4 (F := Ideal) x0 x1 x2 (ix2 r k)) = Mlp.first (Mlp.rowOf x0 r) (Mlp.matOf x1) (Mlp.vecOf x2) :=
    funext (first_row x0 x1 x2 r)
  have h1 : (fun k => val_main_v30 (F := Ideal) x0 x1 x2 x3 x4 x5 (ix2 r k))
      = Mlp.hiddenR (Mlp.first (Mlp.rowOf x0 r) (Mlp.matOf x1) (Mlp.vecOf x2)) (Mlp.matOf x3) (Mlp.vecOf x4) (Mlp.vecOf x5) :=
    (funext (hidden1_row x0 x1 x2 x3 x4 x5 r)).trans (congrArg (fun h => Mlp.hiddenR h (Mlp.matOf x3) (Mlp.vecOf x4) (Mlp.vecOf x5)) h0)
  have h2 : (fun k => val_main_v56 (F := Ideal) x0 x1 x2 x3 x4 x5 x6 x7 x8 (ix2 r k))
      = Mlp.hiddenR (Mlp.hiddenR (Mlp.first (Mlp.rowOf x0 r) (Mlp.matOf x1) (Mlp.vecOf x2)) (Mlp.matOf x3) (Mlp.vecOf x4) (Mlp.vecOf x5))
          (Mlp.matOf x6) (Mlp.vecOf x7) (Mlp.vecOf x8) :=
    (funext (hidden2_row x0 x1 x2 x3 x4 x5 x6 x7 x8 r)).trans (congrArg (fun h => Mlp.hiddenR h (Mlp.matOf x6) (Mlp.vecOf x7) (Mlp.vecOf x8)) h1)
  have h3 : (fun k => val_main_v82 (F := Ideal) x0 x1 x2 x3 x4 x5 x6 x7 x8 x9 x10 x11 (ix2 r k))
      = Mlp.hiddenR (Mlp.hiddenR (Mlp.hiddenR (Mlp.first (Mlp.rowOf x0 r) (Mlp.matOf x1) (Mlp.vecOf x2)) (Mlp.matOf x3) (Mlp.vecOf x4) (Mlp.vecOf x5))
          (Mlp.matOf x6) (Mlp.vecOf x7) (Mlp.vecOf x8)) (Mlp.matOf x9) (Mlp.vecOf x10) (Mlp.vecOf x11) :=
    (funext (hidden3_row x0 x1 x2 x3 x4 x5 x6 x7 x8 x9 x10 x11 r)).trans (congrArg (fun h => Mlp.hiddenR h (Mlp.matOf x9) (Mlp.vecOf x10) (Mlp.vecOf x11)) h2)
  rw [last_row x0 x1 x2 x3 x4 x5 x6 x7 x8 x9 x10 x11 x12 x13 r u, h3]
  rfl

end Cert.Mlp.RefValue

end
-- ==== Proof.FiniteInputs.lean ====
/-
  The precondition "every argument array is finite", read back: each of the fourteen arrays is tested
  entrywise by |x| < +∞, the tests are reduced by conjunction over all axes, and the fourteen results are conjoined.
  When the final bit is 1, every entry of every array is a real number of the extended real line.
-/
import proofs.«101827_j83863531422003_2_alg».proof.Pre_finite_inputs
import Idealize.ShloMosaic.PureOps.Ideal
import Idealize.ShloMosaic.Lib.ReduceAll
import Idealize.ShloMosaic.Lib.ValueIdx

namespace Cert.Mlp.FiniteInputs

open Idealize.ShloMosaic Idealize.ShloMosaic.ValueIdx Cert.Pre_finite_inputs

/-- The scalar shape has exactly one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The f32 pattern 0x7F800000 is +∞. -/
theorem ofBits_inf : Ideal.ofBits .f32 0x7F800000#32 = (⊤ : EReal) := by
  simp [Ideal.ofBits, Ideal.ieee]

/-- An extended real whose absolute value max x (-x) is below +∞ is a real number: at ⊤ the maximum is ⊤,
at ⊥ it is -⊥ = ⊤, and neither is below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One array: if the conjunction over all axes of the entrywise test |x| < +∞ is 1, every entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) := by
  have h1 : Ideal.cmp .olt (max (x i) (-(x i))) (Ideal.ofBits .f32 0x7F800000#32) = 1#1 :=
    Host.reduce_andi_all _ _ hr hu ix0 e i
  rw [ofBits_inf] at h1
  exact real_of_abs_lt_top _ (of_decide_eq_true (ofBool_eq_one.1 h1))

/-- The precondition, read back: the final bit is the conjunction of fourteen all-axes conjunctions, one per array,
so when it is 1 each of them is 1, and every entry of every array is a real number. -/
theorem real_of_pre [Cert.Pre_finite_inputs.Facts] (a0 : FVec Ideal S65536x512 .f32) (a1 : FVec Ideal S512x1024 .f32) (a2 : FVec Ideal S1024 .f32) (a3 : FVec Ideal S1024x1024 .f32) (a4 : FVec Ideal S1024 .f32) (a5 : FVec Ideal S1024 .f32) (a6 : FVec Ideal S1024x1024 .f32) (a7 : FVec Ideal S1024 .f32) (a8 : FVec Ideal S1024 .f32) (a9 : FVec Ideal S1024x1024 .f32) (a10 : FVec Ideal S1024 .f32) (a11 : FVec Ideal S1024 .f32) (a12 : FVec Ideal S1024x1 .f32) (a13 : FVec Ideal S1 .f32)
    (h : Cert.Pre_finite_inputs.fn (F := Ideal) a0 a1 a2 a3 a4 a5 a6 a7 a8 a9 a10 a11 a12 a13 = fun _ => 1#1) :
      (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) := by
  have h0 := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨real_of_all a0 _ _ _ h0,
    real_of_all a1 _ _ _ e1,
    real_of_all a2 _ _ _ e2,
    real_of_all a3 _ _ _ e3,
    real_of_all a4 _ _ _ e4,
    real_of_all a5 _ _ _ e5,
    real_of_all a6 _ _ _ e6,
    real_of_all a7 _ _ _ e7,
    real_of_all a8 _ _ _ e8,
    real_of_all a9 _ _ _ e9,
    real_of_all a10 _ _ _ e10,
    real_of_all a11 _ _ _ e11,
    real_of_all a12 _ _ _ e12,
    real_of_all a13 _ _ _ e13⟩

end Cert.Mlp.FiniteInputs
-- ==== Proof.lean ====
/-
  The certificate of a four-layer perceptron with three LayerNorms, 65536 rows at a time.

  Both programs compute, on every row of the descriptors, a dense layer with bias and ReLU, three times a dense
  layer followed by a LayerNorm with gain and offset and a ReLU, and a dense layer onto one output with bias and
  ReLU. The kernel works on 64 blocks of 1024 rows, rounds its matrix operands to bf16 (no change over the
  extended reals) and takes the LayerNorm's variance as the mean of the squares minus the squared mean; the
  reference works on the whole arrays and takes the mean of the squared deviations. Over the extended reals the two
  are one function once every input is a real number, which the precondition says: then every layer's output is a
  real row, the variance is nonnegative, the epsilon is positive, and the two variance forms agree.

  The kernel's result array is `outK` of the arguments (KBlocks.lean over KPay.lean), the reference's is `outR`
  (RefValue.lean), the inputs are real (FiniteInputs.lean), and `outK = outR` on real inputs (Law.lean). The ideal
  pass rewrote nothing in the kernel, so the idealization claim is trivial, and the three frames are the generated
  ones.
-/
import proofs.«101827_j83863531422003_2_alg».proof.Defs
import proofs.«101827_j83863531422003_2_alg».proof.Proof.Gen.Kernel
import proofs.«101827_j83863531422003_2_alg».proof.Proof.Gen.Kernel.Skeleton
import proofs.«101827_j83863531422003_2_alg».proof.Proof.Gen.Kernel.Launch
import proofs.«101827_j83863531422003_2_alg».proof.Proof.Gen.Kernel.Points
import proofs.«101827_j83863531422003_2_alg».proof.Proof.Gen.Kernel.Frame
import proofs.«101827_j83863531422003_2_alg».proof.Proof.Gen.KernelIdeal
import proofs.«101827_j83863531422003_2_alg».proof.Proof.Gen.KernelIdeal.Skeleton
import proofs.«101827_j83863531422003_2_alg».proof.Proof.Gen.KernelIdeal.Launch
import proofs.«101827_j83863531422003_2_alg».proof.Proof.Gen.KernelIdeal.Points
import proofs.«101827_j83863531422003_2_alg».proof.Proof.Gen.KernelIdeal.Frame
import proofs.«101827_j83863531422003_2_alg».proof.Proof.Gen.ReferenceIdeal
import proofs.«101827_j83863531422003_2_alg».proof.Proof.Gen.Pre_finite_inputs
import proofs.«101827_j83863531422003_2_alg».proof.Proof.Gen.KernelIdeal.Value
import proofs.«101827_j83863531422003_2_alg».proof.Proof.RefRead
import proofs.«101827_j83863531422003_2_alg».proof.Proof.Law
import proofs.«101827_j83863531422003_2_alg».proof.Proof.KBlocks
import proofs.«101827_j83863531422003_2_alg».proof.Proof.RefValue
import proofs.«101827_j83863531422003_2_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten in the kernel, so there is nothing to preserve. -/
theorem preserves : Cert.preserves_Kernel_KernelIdeal := trivial

/-- From memories that agree on the arguments, the kernel ends with `outK` of them and the reference with `outR` of
    them; the precondition makes every argument real, and on real arguments `outK = outR`. -/
theorem algebraic : Cert.algebraic_KernelIdeal_ReferenceIdeal := by
  intro m ρ m' ρ' hpre hagree
  refine ⟨fun c => Cert.Mlp.KBlocks.result m c, Cert.Mlp.KBlocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v87_eq, Cert.Mlp.RefValue.val_eq_outR]
  obtain ⟨a0, a1, a2, a3, a4, a5, a6, a7, a8, a9, a10, a11, a12, a13⟩ := hagree c
  rw [a0, a1, a2, a3, a4, a5, a6, a7, a8, a9, a10, a11, a12, a13]
  obtain ⟨r0, r1, r2, r3, r4, r5, r6, r7, r8, r9, r10, r11, r12, r13⟩ := Cert.Mlp.FiniteInputs.real_of_pre _ _ _ _ _ _ _ _ _ _ _ _ _ _ (hpre c)
  exact (Cert.Mlp.outK_eq_outR _ _ _ _ _ _ _ _ _ _ _ _ _ _ r0 r1 r2 r3 r4 r5 r6 r7 r8 r9 r10 r11).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
